-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S512x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S8192x2048 : Shape := ⟨2, ![8192, 2048]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩
abbrev S1x8192 : Shape := ⟨2, ![1, 8192]⟩
abbrev S8192x128 : Shape := ⟨2, ![8192, 128]⟩
abbrev S1024x2048 : Shape := ⟨2, ![1024, 2048]⟩
abbrev S1024x1 : Shape := ⟨2, ![1024, 1]⟩
abbrev S1x1024 : Shape := ⟨2, ![1, 1024]⟩
abbrev S1024x128 : Shape := ⟨2, ![1024, 128]⟩
abbrev S1024x1024 : Shape := ⟨2, ![1024, 1024]⟩
abbrev S1024x8x128 : Shape := ⟨3, ![1024, 8, 128]⟩
abbrev S_ : Shape := ⟨0, ![]⟩
abbrev S8192 : Shape := ⟨1, ![8192]⟩

abbrev nBuf : Space → Nat
  | .hbm => 14
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x1, .f32⟩
  | .hbm, ⟨3, _⟩ => ⟨S1x8192, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x1, .f32⟩
  | .local _ .vmem, ⟨5, _⟩ => ⟨S512x1, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1, .f32⟩
  | .local _ .vmem, ⟨11, _⟩ => ⟨S1024x1, .f32⟩
  | .local _ .vmem, ⟨12, _⟩ => ⟨S1x1024, .f32⟩
  | .local _ .vmem, ⟨13, _⟩ => ⟨S1x1024, .f32⟩
  | .local _ .vmem, ⟨14, _⟩ => ⟨S1024x128, .f32⟩
  | .local _ .vmem, ⟨15, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S512x1_S512x1_0_0 : ∀ a, (![0, 0] : Fin 2 → Nat) a + S512x1.size a ≤ S512x1.size a
  h_S512x1 : 0 < S512x1.numel
  shapeCasts_S8192x1_S1x8192 : S8192x1.ShapeCasts S1x8192
  inb_S1024x128_S1024x128_0_0 : ∀ a, (![0, 0] : Fin 2 → Nat) a + S1024x128.size a ≤ S1024x128.size a
  h_S1024x128 : 0 < S1024x128.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x8x128 : S1024x1024.ShapeCasts S1024x8x128
  reduces_S1024x8x128_S1024x128 : S1024x8x128.Reduces [1] S1024x128
  shapeCasts_S1024x128_S1024x128 : S1024x128.ShapeCasts S1024x128
  reducesTo_S8192x128_S8192_d1 : S8192x128.ReducesTo [1] S8192
  h_S_ : 0 < S_.numel
  bcast_S_S8192 : S_.BroadcastsInDim S8192 (![] : Fin 0 → Fin S8192.rank)
  reducesTo_S8192_S_d0 : S8192.ReducesTo [0] S_
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x2048.size a
  hwx1_1 : ∀ i : grid1.Coords, EltTy.bits .bf16 = 32 ∨ (Rect.block (s := S8192x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x2048_S8192x2048_S8192x8192_1_1_0_0_n_n_wf : DotDims.WF S8192x2048 S8192x2048 S8192x8192 [1] [1] [0] [0] [] []

variable [Facts₀]

def dot_S8192x2048_S8192x2048_S8192x8192_1_1_0_0_n_n : DotDims S8192x2048 S8192x2048 S8192x8192 where
  lhsContracting := [1]
  rhsContracting := [1]
  lhsNonContracting := [0]
  rhsNonContracting := [0]
  lhsBatch := []
  rhsBatch := []
  wf := dot_S8192x2048_S8192x2048_S8192x8192_1_1_0_0_n_n_wf

class Facts : Prop extends Facts₀ where

variable [Facts]
-- ==== Proof.Region0.lean ====
/-
  The first TensorCore region (the row-normalising call), at an arbitrary contents `V` of the TensorCore's
  buffers when the region is entered.

  The region's pipeline has 16 points and three windows: the input block of 512 rows (window 0), the block of
  normalised rows (window 1) and the block of the normalised rows' squared norms (window 2).  The body reads the
  whole input block once, reads each output buffer once (the values read are never used) and overwrites each
  output buffer whole, so after the body each output buffer is a function of the input block alone:
  `out0_1`, `out0_2`.  This file states that as the pipeline's proof data and proves the body obligation.
-/
import proofs.«173406_j10788957848170_2_alg».proof.Proof.Gen.KernelIdeal.Launch
import proofs.«173406_j10788957848170_2_alg».proof.Proof.Gen.KernelIdeal.Skeleton
import proofs.«173406_j10788957848170_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 × 2048 entries: the elaborator's structural look recurses once per
-- coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is `V`'s (`hA`) and whose body leaves the block in place (`hafter`): the window is fetched
    at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of 512 rows and 2048 columns, and the whole column of 512 entries. -/
abbrev r0_0 : Rect S512x2048 := Rect.unit (s := S512x2048) ![0, 0] S512x2048.size inb_S512x2048_S512x2048_0_0
abbrev r0_1 : Rect S512x1 := Rect.unit (s := S512x1) ![0, 0] S512x1.size inb_S512x1_S512x1_0_0

/-! ## What the body leaves in each output window's buffer -/

/-- Window 1's staging buffer after the body, from the input block: its one store, of the normalised rows
    (`k0_pay2`) of the block read whole. -/
def out0_1 (x0 : Vec F S512x2048 .f32) : Vec F S512x2048 .bf16 :=
  View.canon [⟨r0_0, k0_pay2 (View.ld x0 r0_0)⟩]

/-- The store covers the buffer. -/
theorem cover0_1 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-- Window 2's staging buffer after the body, from the input block: its one store, of the normalised rows'
    squared norms (`k0_pay3`) of the block read whole. -/
def out0_2 (x0 : Vec F S512x2048 .f32) : Vec F S512x1 .f32 :=
  View.canon [⟨r0_1, k0_pay3 (View.ld x0 r0_0)⟩]

/-- The store covers the buffer. -/
theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The kernel body on whole staging memrefs, the input's at contents `x0` and the outputs' at anything, runs to
    the continuation holding the input's as it was and each output's at `out0_W x0`. -/
theorem sound_kernel0 (c : Dev nD) (E : Set ℕ) (i : grid0.Coords) (arg0 : Memref sig .tc .vmem S512x2048 .f32) (harg0 : arg0.IsWhole)
    (arg1 : Memref sig .tc .vmem S512x2048 .bf16) (harg1 : arg1.IsWhole) (arg2 : Memref sig .tc .vmem S512x1 .f32) (harg2 : arg2.IsWhole)
    (x0 : Vec F S512x2048 .f32) (K : PUnit → sProp 𝕄) :
    iprop(owns (c : Thread nD τ) arg0 fullShare x0 ∗ (∃ d, owns (c : Thread nD τ) arg1 fullShare d) ∗ (∃ d, owns (c : Thread nD τ) arg2 fullShare d)
        ∗ (iprop(owns (c : Thread nD τ) arg0 fullShare x0 ∗ owns (c : Thread nD τ) arg1 fullShare (out0_1 x0) ∗ owns (c : Thread nD τ) arg2 fullShare (out0_2 x0)) -∗ K ⟨⟩))
      ⊢ wp frame (wpE (defs₀ (F := F)) Variants.none c none) E (cc0__normalize_kernel i arg0 harg0 arg1 harg1 arg2 harg2) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of the region's pipeline on core `c`: the arrays as the region finds them (`V`); after the
    body at point `t` the input's buffer at its block and each output's at `out0_W` of the input block; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block (`before0_0`), so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.PairFirst.lean ====
/-
  The second pallas_call — the pairwise pass on an 8 × 8 grid of points (i, j) — seen from one grid point.
  Its body reads four input blocks (rows of the normalised matrix for i and for j, and the squared norms as a
  column for i and as a row for j) and keeps ONE output block per i, of 1024 rows and 128 lanes, across the
  eight points j: at j = 0 the block is first set to zero, and at every point the block's contents plus that
  point's lane-folded terms are stored back.  Here: which points have j = 0, the input blocks as read off the
  arrays the call finds, and the body run once for the case j = 0.
-/
import proofs.«173406_j10788957848170_2_alg».proof.Proof.Gen.KernelIdeal.Launch
import proofs.«173406_j10788957848170_2_alg».proof.Proof.Gen.KernelIdeal.Skeleton
import proofs.«173406_j10788957848170_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The input blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the block was fetched at that
    point or is still there from an earlier one (its index has not moved since). -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the block was fetched at that
    point or is still there from an earlier one (its index has not moved since). -/
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the block was fetched at that
    point or is still there from an earlier one (its index has not moved since). -/
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the block was fetched at that
    point or is still there from an earlier one (its index has not moved since). -/
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's one condition -/

/-- "This point has j = 0", as the body computes it from the grid coordinates. -/
abbrev isFirst (i : grid1.Coords) : Prop := (Scalar.cmpi .ne (Scalar.extui (Scalar.cmpi .eq (BitVec.ofNat 32 (i 1).val) 0#32)) 0#32) = 1#1
/-- Points are numbered 8·i + j, so it holds exactly at the multiples of 8. -/
theorem isFirst_iff : ∀ t : Fin cfg1.N, isFirst (grid1.coords t) ↔ t.val % 8 = 0 :=
  (by decide +kernel : ∀ t : Fin grid1.N, isFirst (grid1.coords t) ↔ t.val % 8 = 0)

/-! ## The staging memrefs at a point -/

/-- One staging buffer of the output window, through which its contents are stated (which one does not matter). -/
abbrev VO : View sig .tc .vmem S1024x128 .f32 := (Memref.whole cc1_stg4_0 : Memref sig .tc .vmem S1024x128 .f32).view
abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x2048 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x128 .f32 := win1_4.stage (cfg1.slots t 4)
abbrev hs4 (t : Fin cfg1.N) : (ms4 t).IsWhole := hstage1_4 ((cfg1.slots t 4).cast nbuf1_4)

/-! ## The body at a point with j = 0 -/

set_option maxHeartbeats 1000000 in
/-- At a point with j = 0: on whole staging memrefs, the four inputs' at their contents and the output's at anything,
    the body runs and hands back the inputs' as they were and the output's buffer with its stores written — the
    zero block, then that block plus the point's terms; the list of stores is what the run finds. -/
noncomputable def runFirst (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : isFirst i)
    (x0 : Vec F S1024x2048 .bf16) (x1 : Vec F S1024x2048 .bf16) (x2 : Vec F S1024x1 .f32) (x3 : Vec F S1x1024 .f32) :
    { L : List (View.Piece (Elt F) S1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc1__pairwise_kernel i a2 h2 a3 h3 a4 h4 a5 h5 a6 h6) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h2.eq_unread hf0; obtain rfl := h3.eq_unread hf1; obtain rfl := h4.eq_unread hf2; obtain rfl := h5.eq_unread hf3
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

end Cert.KernelIdeal.R1

end
-- ==== Proof.PairNext.lean ====
/-
  The pairwise pass at a point with j ≠ 0: the output's staging buffer holds what the point before left, and the
  body stores back that block plus this point's lane-folded terms.
-/
import proofs.«173406_j10788957848170_2_alg».proof.Proof.PairFirst

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point with j ≠ 0: on whole staging memrefs, the four inputs' at their contents and the output's at the
    running contents `xo`, the body runs and hands back the inputs' as they were and the output's buffer with its
    one store written; the list of stores is what the run finds. -/
noncomputable def runNext (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : ¬isFirst i)
    (x0 : Vec F S1024x2048 .bf16) (x1 : Vec F S1024x2048 .bf16) (x2 : Vec F S1024x1 .f32) (x3 : Vec F S1x1024 .f32) (xo : Vec F S1024x128 .f32) :
    { L : List (View.Piece (Elt F) S1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc1__pairwise_kernel i a2 h2 a3 h3 a4 h4 a5 h5 a6 h6) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h2.eq_unread hf0; obtain rfl := h3.eq_unread hf1; obtain rfl := h4.eq_unread hf2; obtain rfl := h5.eq_unread hf3
    obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

end Cert.KernelIdeal.R1

end
-- ==== Proof.Pair.lean ====
/-
  The pairwise pass over its whole grid: what the output block of row block i holds after each point (i, j) —
  at j = 0 the zero block plus that point's terms, at j > 0 what the point before left plus this point's terms —,
  the data the pipeline rule takes (the arrays as the call finds them, each window's block after the body, the
  matrix of normalised rows held at half a share by each of the two windows that read it), and the proof that
  the body meets the rule's obligation at every point.
-/
import proofs.«173406_j10788957848170_2_alg».proof.Proof.PairNext

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer -/

/-- At j = 0 the body's stores into the output's buffer tile it, so they cover it. -/
theorem coverFirst (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : isFirst i)
    (x0 : Vec F S1024x2048 .bf16) (x1 : Vec F S1024x2048 .bf16) (x2 : Vec F S1024x1 .f32) (x3 : Vec F S1x1024 .f32) (y : S1024x128.Idx) :
    ∃ pc ∈ (runFirst c i a2 h2 a3 h3 a4 h4 a5 h5 a6 h6 hc x0 x1 x2 x3).1, y ∈ pc.1.set :=
  View.cover_of_tiledL (runFirst c i a2 h2 a3 h3 a4 h4 a5 h5 a6 h6 hc x0 x1 x2 x3).1 S1024x128.size (by sl_kernel_rfl) y

/-- What the body leaves there at j = 0: its stores read back. -/
def outFirst (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : isFirst i)
    (x0 : Vec F S1024x2048 .bf16) (x1 : Vec F S1024x2048 .bf16) (x2 : Vec F S1024x1 .f32) (x3 : Vec F S1x1024 .f32) : Vec F S1024x128 .f32 :=
  VO.read (Elt F) (VO.writes (Elt F) VO.junk (runFirst c i a2 h2 a3 h3 a4 h4 a5 h5 a6 h6 hc x0 x1 x2 x3).1)

/-- At j > 0 the body's one store into the output's buffer covers it. -/
theorem coverNext (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : ¬isFirst i)
    (x0 : Vec F S1024x2048 .bf16) (x1 : Vec F S1024x2048 .bf16) (x2 : Vec F S1024x1 .f32) (x3 : Vec F S1x1024 .f32) (xo : Vec F S1024x128 .f32) (y : S1024x128.Idx) :
    ∃ pc ∈ (runNext c i a2 h2 a3 h3 a4 h4 a5 h5 a6 h6 hc x0 x1 x2 x3 xo).1, y ∈ pc.1.set :=
  View.cover_of_tiledL (runNext c i a2 h2 a3 h3 a4 h4 a5 h5 a6 h6 hc x0 x1 x2 x3 xo).1 S1024x128.size (by sl_kernel_rfl) y

/-- What the body leaves there at j > 0, from what the buffer held. -/
def outNext (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : ¬isFirst i)
    (x0 : Vec F S1024x2048 .bf16) (x1 : Vec F S1024x2048 .bf16) (x2 : Vec F S1024x1 .f32) (x3 : Vec F S1x1024 .f32) (xo : Vec F S1024x128 .f32) : Vec F S1024x128 .f32 :=
  VO.read (Elt F) (VO.writes (Elt F) VO.junk (runNext c i a2 h2 a3 h3 a4 h4 a5 h5 a6 h6 hc x0 x1 x2 x3 xo).1)

/-! ## The output block, point by point -/

/-- What the output's staging buffer holds after the body at point number `n`: at a multiple of 8 (j = 0) a fresh
    start, otherwise built on what point `n - 1` left (the buffer is not written back in between). -/
def outsAt (c : Dev nD) : (n : ℕ) → n < cfg1.N → Vec F S1024x128 .f32
  | 0, hn => outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirst_iff ⟨0, hn⟩).mpr (Nat.zero_mod _)) (iblk V c 0 ⟨0, hn⟩) (iblk V c 1 ⟨0, hn⟩) (iblk V c 2 ⟨0, hn⟩) (iblk V c 3 ⟨0, hn⟩)
  | n + 1, hn =>
    if h0 : (n + 1) % 8 = 0 then
      outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirst_iff ⟨n + 1, hn⟩).mpr h0) (iblk V c 0 ⟨n + 1, hn⟩) (iblk V c 1 ⟨n + 1, hn⟩) (iblk V c 2 ⟨n + 1, hn⟩) (iblk V c 3 ⟨n + 1, hn⟩)
    else
      outNext c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn))

theorem outsAt_first (c : Dev nD) (t : Fin cfg1.N) (h0 : t.val % 8 = 0) :
    outsAt V c t.val t.isLt = outFirst c (grid1.coords t) (ms0 t) (hs0 t) (ms1 t) (hs1 t) (ms2 t) (hs2 t) (ms3 t) (hs3 t) (ms4 t) (hs4 t) ((isFirst_iff t).mpr h0) (iblk V c 0 t) (iblk V c 1 t) (iblk V c 2 t) (iblk V c 3 t) := by
  obtain ⟨n, hn⟩ := t
  cases n with
  | zero => exact rfl
  | succ n => exact (dif_pos h0).trans rfl

theorem outsAt_next (c : Dev nD) (t : Fin cfg1.N) (h0 : ¬t.val % 8 = 0) :
    outsAt V c t.val t.isLt = outNext c (grid1.coords t) (ms0 t) (hs0 t) (ms1 t) (hs1 t) (ms2 t) (hs2 t) (ms3 t) (hs3 t) (ms4 t) (hs4 t) (fun h => h0 ((isFirst_iff t).mp h)) (iblk V c 0 t) (iblk V c 1 t) (iblk V c 2 t) (iblk V c 3 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline rule's data -/

/-- The arrays as the call finds them; after the body each input's buffer still at its block and the output's at
    `outsAt`; the untouched rest (the other call's staging buffers, the generator register) as the invariant;
    nothing owed; the normalised matrix, read through two windows, held at half a share by each. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outsAt V c t.val t.isLt := by dsimp only [dat]

theorem before_0 (c : Dev nD) (t : Fin cfg1.N) (d) : (dat V c).before 0 t d = iblk V c 0 t :=
  before_in0 V (dat V c) (A_eq V c 0) (after_0 V c) t d
theorem before_1 (c : Dev nD) (t : Fin cfg1.N) (d) : (dat V c).before 1 t d = iblk V c 1 t :=
  before_in1 V (dat V c) (A_eq V c 1) (after_1 V c) t d
theorem before_2 (c : Dev nD) (t : Fin cfg1.N) (d) : (dat V c).before 2 t d = iblk V c 2 t :=
  before_in2 V (dat V c) (A_eq V c 2) (after_2 V c) t d
theorem before_3 (c : Dev nD) (t : Fin cfg1.N) (d) : (dat V c).before 3 t d = iblk V c 3 t :=
  before_in3 V (dat V c) (A_eq V c 3) (after_3 V c) t d

/-- At a point with j > 0 the output's current staging buffer holds what the body left at the point before: the
    block was not written back in between (that happens after j = 7 only). -/
theorem before_4_next (c : Dev nD) (t : Fin cfg1.N) (h0 : ¬t.val % 8 = 0) (d) :
    (dat V c).before 4 t d = outsAt V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat]

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in
/-- The body at any point: the inputs' memrefs hold their blocks; j = 0 or not says which run applies, and at
    j > 0 the output's buffer holds what the point before left; the invariant and the core's dues pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  have hN : t.val < 64 := lt_of_lt_of_eq t.isLt (show cfg1.N = 64 from N_1)
  by_cases h0 : t.val % 8 = 0
  · rw [outsAt_first V c t h0]
    unfold outFirst
    iintro ⟨HΦ, Ho, ⟨%d0, H0⟩, ⟨%d1, H1⟩, ⟨%d2, H2⟩, ⟨%d3, H3⟩, ⟨%d4, H4⟩⟩
    iapply ((runFirst c (grid1.coords t) _ _ _ _ _ _ _ _ _ _ ((isFirst_iff t).mpr h0) (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [outsAt_next V c t h0]
    simp only [before_4_next V c t h0]
    unfold outNext
    iintro ⟨HΦ, Ho, ⟨%d0, H0⟩, ⟨%d1, H1⟩, ⟨%d2, H2⟩, ⟨%d3, H3⟩, ⟨%d4, H4⟩⟩
    iapply ((runNext c (grid1.coords t) _ _ _ _ _ _ _ _ _ _ (fun h => h0 ((isFirst_iff t).mp h)) (iblk V c 0 t) (iblk V c 1 t) (iblk V c 2 t) (iblk V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverNext c _ _ _ _ _ _ _ _ _ _ _ _ _ _ _ _ _)

/-- The pipeline rule's obligation on the body, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.PairArrays.lean ====
/-
  The pairwise pass's arrays and the buffers behind them.  Five windows, four buffers: the matrix of normalised
  rows is read through two windows.  Holding each of the four buffers whole is the same as holding, window by
  window, the squared norms (column and row form) and the output whole and the matrix twice at half a share.
-/
import proofs.«173406_j10788957848170_2_alg».proof.Proof.Pair
import Idealize.ShloMosaic.Lib.Pipeline.Regions

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The distinct buffers behind the five windows' arrays. -/
theorem arr_image : (Finset.univ.image (Pipeline.arrRef spec1) : Finset (Ref sig .tc)) = {main_v0_0, main_v0_1, main_v1, main_v2} := by decide

/-- Any data for this pipeline that holds the twice-read matrix at the two halves of a share, and the other two inputs whole. -/
structure Halved {c : Dev nD} (d : Dat τ (Elt F) Unit ℕ (UR sig nD τ) ℕ cfg1 c) : Prop where
  q0 : d.q 0 = fullShare.left
  q1 : d.q 1 = fullShare.right
  q2 : d.q 2 = fullShare
  q3 : d.q 3 = fullShare

theorem dat_halved (V : (c : Dev nD) → (b : Ref sig .tc) → Buf (Elt F) ((c : Thread nD τ).loc b)) (c : Dev nD) : Halved (dat V c) :=
  ⟨by dsimp only [dat], by dsimp only [dat], by dsimp only [dat], by dsimp only [dat]⟩

/-- The arrays, window by window at contents `G w`, are the four buffers whole at a valuation `V` that has `G w` at each
    window's buffer: the two half shares of the matrix join to the whole, and the whole splits into them. -/
theorem arrays_iff {c : Dev nD} (d : Dat τ (Elt F) Unit ℕ (UR sig nD τ) ℕ cfg1 c) (hd : Halved d)
    (V : (b : Ref sig .tc) → Buf (Elt F) ((c : Thread nD τ).loc b))
    (G : (w : Fin cfg1.W) → Buf (Elt F) ((cfg1.win w).arr.view.loc (c.tc : Thread nD τ)))
    (hG : ∀ w, G w = V (Pipeline.arrRef spec1 w)) :
    (d.arrays G : sProp 𝕄) ⊣⊢ Pipeline.arrBufs spec1 c V := by
  have e0 : ((cfg1.win 0).arr.view.loc (c.tc : Thread nD τ) ↦[(cfg1.win 0).arr.view.set]{d.share 0} G 0 : sProp 𝕄)
      = (((c.tc : Thread nD τ).loc main_v0_0) ↦{fullShare.left} V main_v0_0) := by
    rw [(arr_whole1 0).set_eq_univ, hG 0, show d.share 0 = d.q 0 from rfl, hd.q0]
  have e1 : ((cfg1.win 1).arr.view.loc (c.tc : Thread nD τ) ↦[(cfg1.win 1).arr.view.set]{d.share 1} G 1 : sProp 𝕄)
      = (((c.tc : Thread nD τ).loc main_v0_0) ↦{fullShare.right} V main_v0_0) := by
    rw [(arr_whole1 1).set_eq_univ, hG 1, show d.share 1 = d.q 1 from rfl, hd.q1]
  have e2 : ((cfg1.win 2).arr.view.loc (c.tc : Thread nD τ) ↦[(cfg1.win 2).arr.view.set]{d.share 2} G 2 : sProp 𝕄)
      = (((c.tc : Thread nD τ).loc main_v0_1) ↦{fullShare} V main_v0_1) := by
    rw [(arr_whole1 2).set_eq_univ, hG 2, show d.share 2 = d.q 2 from rfl, hd.q2]
  have e3 : ((cfg1.win 3).arr.view.loc (c.tc : Thread nD τ) ↦[(cfg1.win 3).arr.view.set]{d.share 3} G 3 : sProp 𝕄)
      = (((c.tc : Thread nD τ).loc main_v1) ↦{fullShare} V main_v1) := by
    rw [(arr_whole1 3).set_eq_univ, hG 3, show d.share 3 = d.q 3 from rfl, hd.q3]
  have e4 : ((cfg1.win 4).arr.view.loc (c.tc : Thread nD τ) ↦[(cfg1.win 4).arr.view.set]{d.share 4} G 4 : sProp 𝕄)
      = (((c.tc : Thread nD τ).loc main_v2) ↦{fullShare} V main_v2) := by
    rw [(arr_whole1 4).set_eq_univ, hG 4, show d.share 4 = fullShare from rfl]
  have hsh : ((((c.tc : Thread nD τ).loc main_v0_0) ↦{fullShare} V main_v0_0) : sProp 𝕄)
      ⊣⊢ iprop((((c.tc : Thread nD τ).loc main_v0_0) ↦{fullShare.left} V main_v0_0) ∗ (((c.tc : Thread nD τ).loc main_v0_0) ↦{fullShare.right} V main_v0_0)) :=
    pointsTo_share (PosShare.mem_left_op_right fullShare)
  have hL : (Pipeline.arrBufs spec1 c V : sProp 𝕄)
      = iprop((((c.tc : Thread nD τ).loc main_v0_0) ↦{fullShare} V main_v0_0) ∗ (((c.tc : Thread nD τ).loc main_v0_1) ↦{fullShare} V main_v0_1)
          ∗ (((c.tc : Thread nD τ).loc main_v1) ↦{fullShare} V main_v1) ∗ (((c.tc : Thread nD τ).loc main_v2) ↦{fullShare} V main_v2)) := by
    unfold Pipeline.arrBufs
    exact bigSep_eq_bigSepL_of_eq [main_v0_0, main_v0_1, main_v1, main_v2] (by decide) (by decide) _
  rw [hL]
  unfold Dat.arrays
  rw [bigSep_W1, e0, e1, e2, e3, e4]
  constructor
  · iintro ⟨Ha, Hb, H2, H3, H4⟩
    isplitl [Ha Hb]
    · iapply hsh.2; isplitl [Ha] <;> iassumption
    isplitl [H2]; · iexact H2
    isplitl [H3]; · iexact H3
    iexact H4
  · iintro ⟨Hab, H2, H3, H4⟩
    ihave H := hsh.1 $$ Hab
    icases H with ⟨Ha, Hb⟩
    isplitl [Ha]; · iexact Ha
    isplitl [Hb]; · iexact Hb
    isplitl [H2]; · iexact H2
    isplitl [H3]; · iexact H3
    iexact H4

end Cert.KernelIdeal.R1

end
-- ==== Proof.RunCond.lean ====
/-
  The run of @main with its result read back: the kernel regions' segment records, chained through the
  valuations `V0 … V4` of the unscoped buffers, give that every weakly fair execution terminates with the
  result buffer `main_v7` holding what the last valuation says, and the argument unchanged.
-/
import proofs.«173406_j10788957848170_2_alg».proof.Proof.Gen.KernelIdeal.Launch
import proofs.«173406_j10788957848170_2_alg».proof.Proof.Gen.KernelIdeal.Regions
import Idealize.ShloMosaic.Lib.Pipeline.Frame
import Idealize.ShloMosaic.Lib.Pipeline.Regions

noncomputable section

namespace Cert.KernelIdeal.RunK

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

variable (m : (ℓ : Loc nD τ sig) → Buf (Elt F) ℓ)

set_option backward.isDefEq.respectTransparency.types false in
/-- The run of @main with its result read back.  For any user algebra, level assignment, launch dues and ghost
    resources, any rest states `E` the launch makes on every core at once and that end owing nothing, any contents the
    regions leave (`outs`) and any proof data: given, per kernel region, a segment record entered from the thread state
    before it and left at the one after it, every weakly fair execution of @main from memory `m` with zero counters
    terminates, and in every final memory core `c` holds in `main_v7` what the last valuation `V4 m outs c` says
    (the two host stretches applied around what the regions leave) and in `main_arg0` what was launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v7) = V4 m outs c main_v7
      ∧ r.2.mem ((c.tc : Thread nD τ).loc main_arg0) = m ((c.tc : Thread nD τ).loc main_arg0)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨hpre0 c, hpost0 c, hpre1 c, hpost1 c, sep_mono .rfl (hE2 c)⟩)
    (hinit := ?_) (QY := fun c s => s.mem ((c.tc : Thread nD τ).loc main_v7) = V4 m outs c main_v7
      ∧ s.mem ((c.tc : Thread nD τ).loc main_arg0) = m ((c.tc : Thread nD τ).loc main_arg0))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and the argument's, both read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v7) (Finset.mem_filter.mpr ⟨StableHlo.devRef_mem_tcRefs main_v7, by decide⟩),
        (h (Proc.devRef .tc main_arg0) (Finset.mem_filter.mpr ⟨StableHlo.devRef_mem_tcRefs main_arg0, by decide⟩)).trans (V4_main_arg0 m outs c)⟩
    · iexact HSI

end Cert.KernelIdeal.RunK

end
-- ==== Proof.MainRun.lean ====
/-
  The whole program, segment by segment: the normalising call, a reshape of the squared norms from a column to
  a row, the pairwise call, and the closing sums and quotients.  Between segments each TensorCore holds every
  buffer of the program at a known contents: at launch the memory; after the first call the normalised rows and
  their squared norms where that call's write-backs put them; after the second the lane sums; the host
  operations in between applied on top.  Each call enters from these contents, splits its arrays out of them
  and puts them back at its exit.
-/
import proofs.«173406_j10788957848170_2_alg».proof.Proof.Region0
import proofs.«173406_j10788957848170_2_alg».proof.Proof.PairArrays
import proofs.«173406_j10788957848170_2_alg».proof.Proof.Gen.KernelIdeal.Regions
import proofs.«173406_j10788957848170_2_alg».proof.Proof.RunCond
import Idealize.ShloMosaic.Lib.Pipeline.RegionsLoop
import Idealize.ShloMosaic.Lib.Pipeline.FrameSuffix

set_option maxRecDepth 16384

noncomputable section

namespace Cert.KernelIdeal.RunK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ)

/-! ## The contents between segments -/

/-- What the first call is entered from, read at a TensorCore reference. -/
abbrev E0 (c : Dev nD) (b : Ref sig .tc) : Buf (Elt F) ((c : Thread nD τ).loc b) := V0 m c b

/-- After the first call: its arrays at what its write-backs leave, everything else as launched. -/
def X1 (c : Dev nD) : Valuation τ sig (Elt F) :=
  Pipeline.withArrays spec0 c (V0 m c) fun w => (R0.dat0 (E0 m) c).arrAt w cfg0.N

/-- The first call's results, as the contents that ride through the next segments. -/
def outs1 : Outs (F := F) := fun _ r c => X1 m c r

/-- What the second call is entered from: the reshape applied on top. -/
abbrev E1 (c : Dev nD) (b : Ref sig .tc) : Buf (Elt F) ((c : Thread nD τ).loc b) := V2 m (outs1 m) c b

/-- After the second call: its output array at what its write-backs leave. -/
def X3 (c : Dev nD) : Valuation τ sig (Elt F) :=
  Function.update (V2 m (outs1 m) c) (Proc.devRef .tc main_v2) ((R1.dat (E1 m) c).arrAt 4 cfg1.N)

/-- What the two calls leave, by segment number. -/
def outs : Outs (F := F) := fun J r c => if J = 3 then X3 m c r else X1 m c r

theorem V1_eq (c : Dev nD) : V1 m (outs m) c = V1 m (outs1 m) c := rfl
theorem V2_eq (c : Dev nD) : V2 m (outs m) c = V2 m (outs1 m) c := rfl

theorem X1_arr (c : Dev nD) (w : Fin cfg0.W) :
    X1 m c (Proc.devRef .tc (Pipeline.arrRef spec0 w)) = (R0.dat0 (E0 m) c).arrAt w cfg0.N := by
  unfold X1; exact Pipeline.withArrays_arr spec0 launch0.win.arr_inj c _ _ w

/-! ## The proof data of both calls and what rides along -/

def pdats : (p : Fin 2) → (c : Dev nD) → Dat τ (Elt F) Unit ℕ (UR sig nD τ) ℕ (cfgs p) c
  | ⟨0, _⟩ => fun c => R0.dat0 (E0 m) c
  | ⟨1, _⟩ => fun c => R1.dat (E1 m) c

abbrev Lz : GSem nD τ sig → Finset Unit := fun _ => ∅
abbrev lvz : GSem nD τ sig → Unit → ℕ := fun _ _ => 0
/-- Beside the buffers: the generator register at some state, and nothing owed. -/
abbrev Rr (c : Dev nD) : sProp 𝕄 := iprop((∃ r, prngReg c r) ∗ ∃ W, owes (c : Thread nD τ) (0 : CellTallies nD τ sig Unit) W)

/-! ## The first call as a segment -/

theorem hF0 (c : Dev nD) (w : Fin cfg0.W) : (R0.dat0 (E0 m) c).arrAt w cfg0.N = V1 m (outs m) c (Pipeline.arrRef spec0 w) := by
  match w with
  | ⟨0, _⟩ =>
    exact ((R0.dat0 (E0 m) c).arrAt_in 0 rfl _).trans ((R0.A_eq0 (E0 m) c 0).trans (V1_of m (outs m) c main_arg0 (by decide)).symm)
  | ⟨1, _⟩ =>
    refine (X1_arr m c 1).symm.trans ?_
    show outs m 1 main_v0_0 c = V1 m (outs m) c main_v0_0
    unfold V1
    rw [Function.update_of_ne (StableHlo.devRef_ne_of_ne (by decide) : (Proc.devRef .tc main_v0_0 : DevRef τ sig) ≠ Proc.devRef .tc main_v0_1), Function.update_self]
  | ⟨2, _⟩ =>
    refine (X1_arr m c 2).symm.trans ?_
    show outs m 1 main_v0_1 c = V1 m (outs m) c main_v0_1
    unfold V1
    rw [Function.update_self]

theorem hrest0 (c : Dev nD) : ∀ b, b ∉ Finset.univ.image (Pipeline.arrRef spec0) → V1 m (outs m) c b = E0 m c b :=
  fun b hb => V1_of m (outs m) c b (fun h => hb (by
    rcases List.mem_cons.mp h with rfl | h
    · exact Finset.mem_image.mpr ⟨1, Finset.mem_univ _, rfl⟩
    · rcases List.mem_cons.mp h with rfl | h
      · exact Finset.mem_image.mpr ⟨2, Finset.mem_univ _, rfl⟩
      · exact absurd h (List.not_mem_nil)))

set_option backward.isDefEq.respectTransparency.types false in
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (R0.body_obligation0 (E0 m) c).loose
  hwaits := Pipeline.hwaits_of_owed_zero _ _ _ _ Lz lvz 0 fun _ _ => rfl
  pre c := iprop(StableHlo.held (c : Thread nD τ) (Pipeline.ucRefs τ sig) (V0 m c) ∗ Rr c)
  post c := iprop(StableHlo.held (c : Thread nD τ) (Pipeline.ucRefs τ sig) (V1 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call as a segment -/

theorem arr_unscoped1 : ∀ w, (Pipeline.arrRef spec1 w).isScoped = false := by decide

theorem hF1 (c : Dev nD) (w : Fin cfg1.W) : (R1.dat (E1 m) c).arrAt w cfg1.N = V3 m (outs m) c (Pipeline.arrRef spec1 w) := by
  match w with
  | ⟨0, _⟩ =>
    exact ((R1.dat (E1 m) c).arrAt_in 0 rfl _).trans ((R1.A_eq (E1 m) c 0).trans (V3_of m (outs m) c main_v0_0 (by decide)).symm)
  | ⟨1, _⟩ =>
    exact ((R1.dat (E1 m) c).arrAt_in 1 rfl _).trans ((R1.A_eq (E1 m) c 1).trans (V3_of m (outs m) c main_v0_0 (by decide)).symm)
  | ⟨2, _⟩ =>
    exact ((R1.dat (E1 m) c).arrAt_in 2 rfl _).trans ((R1.A_eq (E1 m) c 2).trans (V3_of m (outs m) c main_v0_1 (by decide)).symm)
  | ⟨3, _⟩ =>
    exact ((R1.dat (E1 m) c).arrAt_in 3 rfl _).trans ((R1.A_eq (E1 m) c 3).trans (V3_of m (outs m) c main_v1 (by decide)).symm)
  | ⟨4, _⟩ =>
    show _ = V3 m (outs m) c main_v2
    unfold V3
    rw [Function.update_self]
    show _ = X3 m c (Proc.devRef .tc main_v2)
    unfold X3
    rw [Function.update_self]
    rfl

theorem hrest1 (c : Dev nD) : ∀ b, b ∉ Finset.univ.image (Pipeline.arrRef spec1) → V3 m (outs m) c b = E1 m c b :=
  fun b hb => V3_of m (outs m) c b (fun h => hb (by
    rcases List.mem_cons.mp h with rfl | h
    · exact Finset.mem_image.mpr ⟨4, Finset.mem_univ _, rfl⟩
    · exact absurd h (List.not_mem_nil)))

set_option backward.isDefEq.respectTransparency.types false in
def reg1 : RegionSeg (pcfgs (F := F)) adm (pdats m) () defs₀ Variants.none Lz lvz 1 where
  win := winFacts₀1
  block_pos := block_pos1
  stage_whole := stage_whole1
  K := PEmpty
  osem k := k.elim
  ho := Pipeline.OwnSemFacts.none _
  hbody c := (R1.body_obligation (E1 m) c).loose
  hwaits := Pipeline.hwaits_of_owed_zero _ _ _ _ Lz lvz 1 fun _ _ => rfl
  pre c := iprop(StableHlo.held (c : Thread nD τ) (Pipeline.ucRefs τ sig) (V2 m (outs1 m) c) ∗ Rr c)
  post c := iprop(StableHlo.held (c : Thread nD τ) (Pipeline.ucRefs τ sig) (V3 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hs := Pipeline.unscopedBufs_split₀ (Ix := Unit) (Name := ℕ) (U := UR sig nD τ) (Lvl := ℕ) (Val := Elt F) cfgs 1 arr_unscoped1 c (E1 m c)
    rw [Pipeline.unscopedBufs_held] at hs
    have ha := (R1.arrays_iff (R1.dat (E1 m) c) (R1.dat_halved (E1 m) c) (E1 m c) (R1.dat (E1 m) c).A (R1.A_eq (E1 m) c)).2
    have hs' := Entails.of_eq hs
    iintro ⟨⟨Hub, Hp, HO⟩, -, -⟩
    ihave H := hs' $$ Hub
    icases H with ⟨Hb, Hrest⟩
    ihave Ha := ha $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs := Pipeline.unscopedBufs_split₀ (Ix := Unit) (Name := ℕ) (U := UR sig nD τ) (Lvl := ℕ) (Val := Elt F) cfgs 1 arr_unscoped1 c (fun b => V3 m (outs m) c b)
    rw [Pipeline.unscopedBufs_held] at hs
    have ha := (R1.arrays_iff (R1.dat (E1 m) c) (R1.dat_halved (E1 m) c) (fun b => V3 m (outs m) c b) ((R1.dat (E1 m) c).arrAt · cfg1.N) (hF1 m c)).1
    have hr : (Pipeline.unscopedRest (Ix := Unit) (Name := ℕ) (U := UR sig nD τ) (Lvl := ℕ) spec1 c (E1 m c) : sProp 𝕄)
        = Pipeline.unscopedRest spec1 c (fun b => V3 m (outs m) c b) := by
      unfold Pipeline.unscopedRest
      exact bigSep_congr fun b hb =>
        congrArg (fun v => ((((c.tc : Thread nD τ).loc b) ↦{fullShare} v) : sProp 𝕄)) (hrest1 m c b (Finset.mem_sdiff.mp hb).2).symm
    iintro ⟨Ha, HO, HY, Hrest⟩
    imodintro
    isplitl [Ha Hrest]
    · iapply (Entails.of_eq hs.symm)
      isplitl [Ha]
      · iapply ha; iexact Ha
      iapply (Entails.of_eq hr); iexact Hrest
    isplitl [HY]; · iexact HY
    unfold Pipeline.Dat.owesAt Pipeline.owesWithin
    icases HO with ⟨%W, -, HO⟩; iexists W; iexact HO

/-! ## The run -/

variable (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lz lvz)
    ⊢ (|={Set.univ}=> bigSep Finset.univ (fun c : Dev nD => Rr (F := F) c) : sProp 𝕄) := by
  refine Pipeline.initEach Lz lvz fun c => ?_
  iintro ⟨⟨-, HO, -, Hp, -⟩, -⟩
  imodintro
  isplitl [Hp]; · iexists _; iexact Hp
  iexists ∅; iexact HO

set_option backward.isDefEq.respectTransparency.types false in
/-- Every weakly fair execution of the program terminates, faults nowhere, leaves its argument as launched, and
    leaves in the result buffer what the closing host operations make of the lane sums the second call left. -/
theorem run_main : θ_run defs (onTc (τ := τ) (main (F := F))) ⟨m, fun _ => 0, ρ⟩ (fun r => ∀ c : Dev nD,
      r.2.mem ((c.tc : Thread nD τ).loc main_v7) = V4 m (outs m) c main_v7
      ∧ r.2.mem ((c.tc : Thread nD τ).loc main_arg0) = m ((c.tc : Thread nD τ).loc main_arg0)) :=
  run_cond m emb₁ () Variants.none Lz lvz (fun _ _ => rfl) ρ (outs m) (pdats m) 0 (fun _ => iprop(emp))
    (initOf (Pipeline.cells cfgs cellOf_inj) (Pipeline.launchToks cfgs cellOf_inj)) hu₀
    (fun _ c => Rr c) (hE0 ρ) (fun c => by iintro ⟨-, H⟩; iexact H)
    (reg0 m) (fun _ => .rfl) (fun _ => .rfl)
    (reg1 m) (fun c => .rfl) (fun _ => .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.RunK

end
-- ==== Proof.Region0B.lean ====
/-
  The first TensorCore region (the row-normalising call), at an arbitrary contents `V` of the TensorCore's
  buffers when the region is entered.

  The region's pipeline has 16 points and three windows: the input block of 512 rows (window 0), the block of
  normalised rows (window 1) and the block of the normalised rows' squared norms (window 2).  The body reads the
  whole input block once, reads each output buffer once (the values read are never used) and overwrites each
  output buffer whole, so after the body each output buffer is a function of the input block alone:
  `out0_1`, `out0_2`.  This file states that as the pipeline's proof data and proves the body obligation.
-/
import proofs.«173406_j10788957848170_2_alg».proof.Proof.Gen.Kernel.Launch
import proofs.«173406_j10788957848170_2_alg».proof.Proof.Gen.Kernel.Skeleton
import proofs.«173406_j10788957848170_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 × 2048 entries: the elaborator's structural look recurses once per
-- coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is `V`'s (`hA`) and whose body leaves the block in place (`hafter`): the window is fetched
    at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of 512 rows and 2048 columns, and the whole column of 512 entries. -/
abbrev r0_0 : Rect S512x2048 := Rect.unit (s := S512x2048) ![0, 0] S512x2048.size inb_S512x2048_S512x2048_0_0
abbrev r0_1 : Rect S512x1 := Rect.unit (s := S512x1) ![0, 0] S512x1.size inb_S512x1_S512x1_0_0

/-! ## What the body leaves in each output window's buffer -/

/-- Window 1's staging buffer after the body, from the input block: its one store, of the normalised rows
    (`k0_pay1`) of the block read whole. -/
def out0_1 (x0 : Vec F S512x2048 .f32) : Vec F S512x2048 .bf16 :=
  View.canon [⟨r0_0, k0_pay1 (View.ld x0 r0_0)⟩]

/-- The store covers the buffer. -/
theorem cover0_1 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-- Window 2's staging buffer after the body, from the input block: its one store, of the normalised rows'
    squared norms (`k0_pay2`) of the block read whole. -/
def out0_2 (x0 : Vec F S512x2048 .f32) : Vec F S512x1 .f32 :=
  View.canon [⟨r0_1, k0_pay2 (View.ld x0 r0_0)⟩]

/-- The store covers the buffer. -/
theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The kernel body on whole staging memrefs, the input's at contents `x0` and the outputs' at anything, runs to
    the continuation holding the input's as it was and each output's at `out0_W x0`. -/
theorem sound_kernel0 (c : Dev nD) (E : Set ℕ) (i : grid0.Coords) (arg0 : Memref sig .tc .vmem S512x2048 .f32) (harg0 : arg0.IsWhole)
    (arg1 : Memref sig .tc .vmem S512x2048 .bf16) (harg1 : arg1.IsWhole) (arg2 : Memref sig .tc .vmem S512x1 .f32) (harg2 : arg2.IsWhole)
    (x0 : Vec F S512x2048 .f32) (K : PUnit → sProp 𝕄) :
    iprop(owns (c : Thread nD τ) arg0 fullShare x0 ∗ (∃ d, owns (c : Thread nD τ) arg1 fullShare d) ∗ (∃ d, owns (c : Thread nD τ) arg2 fullShare d)
        ∗ (iprop(owns (c : Thread nD τ) arg0 fullShare x0 ∗ owns (c : Thread nD τ) arg1 fullShare (out0_1 x0) ∗ owns (c : Thread nD τ) arg2 fullShare (out0_2 x0)) -∗ K ⟨⟩))
      ⊢ wp frame (wpE (defs₀ (F := F)) Variants.none c none) E (cc0__normalize_kernel i arg0 harg0 arg1 harg1 arg2 harg2) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of the region's pipeline on core `c`: the arrays as the region finds them (`V`); after the
    body at point `t` the input's buffer at its block and each output's at `out0_W` of the input block; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block (`before0_0`), so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.PairFirstB.lean ====
/-
  The second pallas_call — the pairwise pass on an 8 × 8 grid of points (i, j) — seen from one grid point.
  Its body reads four input blocks (rows of the normalised matrix for i and for j, and the squared norms as a
  column for i and as a row for j) and keeps ONE output block per i, of 1024 rows and 128 lanes, across the
  eight points j: at j = 0 the block is first set to zero, and at every point the block's contents plus that
  point's lane-folded terms are stored back.  Here: which points have j = 0, the input blocks as read off the
  arrays the call finds, and the body run once for the case j = 0.
-/
import proofs.«173406_j10788957848170_2_alg».proof.Proof.Gen.Kernel.Launch
import proofs.«173406_j10788957848170_2_alg».proof.Proof.Gen.Kernel.Skeleton
import proofs.«173406_j10788957848170_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The input blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the block was fetched at that
    point or is still there from an earlier one (its index has not moved since). -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the block was fetched at that
    point or is still there from an earlier one (its index has not moved since). -/
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the block was fetched at that
    point or is still there from an earlier one (its index has not moved since). -/
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the block was fetched at that
    point or is still there from an earlier one (its index has not moved since). -/
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's one condition -/

/-- "This point has j = 0", as the body computes it from the grid coordinates. -/
abbrev isFirst (i : grid1.Coords) : Prop := (Scalar.cmpi .ne (Scalar.extui (Scalar.cmpi .eq (BitVec.ofNat 32 (i 1).val) 0#32)) 0#32) = 1#1
/-- Points are numbered 8·i + j, so it holds exactly at the multiples of 8. -/
theorem isFirst_iff : ∀ t : Fin cfg1.N, isFirst (grid1.coords t) ↔ t.val % 8 = 0 :=
  (by decide +kernel : ∀ t : Fin grid1.N, isFirst (grid1.coords t) ↔ t.val % 8 = 0)

/-! ## The staging memrefs at a point -/

/-- One staging buffer of the output window, through which its contents are stated (which one does not matter). -/
abbrev VO : View sig .tc .vmem S1024x128 .f32 := (Memref.whole cc1_stg4_0 : Memref sig .tc .vmem S1024x128 .f32).view
abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x2048 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x128 .f32 := win1_4.stage (cfg1.slots t 4)
abbrev hs4 (t : Fin cfg1.N) : (ms4 t).IsWhole := hstage1_4 ((cfg1.slots t 4).cast nbuf1_4)

/-! ## The body at a point with j = 0 -/

set_option maxHeartbeats 1000000 in
/-- At a point with j = 0: on whole staging memrefs, the four inputs' at their contents and the output's at anything,
    the body runs and hands back the inputs' as they were and the output's buffer with its stores written — the
    zero block, then that block plus the point's terms; the list of stores is what the run finds. -/
noncomputable def runFirst (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : isFirst i)
    (x0 : Vec F S1024x2048 .bf16) (x1 : Vec F S1024x2048 .bf16) (x2 : Vec F S1024x1 .f32) (x3 : Vec F S1x1024 .f32) :
    { L : List (View.Piece (Elt F) S1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc1__pairwise_kernel i a2 h2 a3 h3 a4 h4 a5 h5 a6 h6) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h2.eq_unread hf0; obtain rfl := h3.eq_unread hf1; obtain rfl := h4.eq_unread hf2; obtain rfl := h5.eq_unread hf3
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

end Cert.Kernel.R1

end
-- ==== Proof.PairNextB.lean ====
/-
  The pairwise pass at a point with j ≠ 0: the output's staging buffer holds what the point before left, and the
  body stores back that block plus this point's lane-folded terms.
-/
import proofs.«173406_j10788957848170_2_alg».proof.Proof.PairFirstB

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point with j ≠ 0: on whole staging memrefs, the four inputs' at their contents and the output's at the
    running contents `xo`, the body runs and hands back the inputs' as they were and the output's buffer with its
    one store written; the list of stores is what the run finds. -/
noncomputable def runNext (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : ¬isFirst i)
    (x0 : Vec F S1024x2048 .bf16) (x1 : Vec F S1024x2048 .bf16) (x2 : Vec F S1024x1 .f32) (x3 : Vec F S1x1024 .f32) (xo : Vec F S1024x128 .f32) :
    { L : List (View.Piece (Elt F) S1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc1__pairwise_kernel i a2 h2 a3 h3 a4 h4 a5 h5 a6 h6) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h2.eq_unread hf0; obtain rfl := h3.eq_unread hf1; obtain rfl := h4.eq_unread hf2; obtain rfl := h5.eq_unread hf3
    obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

end Cert.Kernel.R1

end
-- ==== Proof.PairB.lean ====
/-
  The pairwise pass over its whole grid: what the output block of row block i holds after each point (i, j) —
  at j = 0 the zero block plus that point's terms, at j > 0 what the point before left plus this point's terms —,
  the data the pipeline rule takes (the arrays as the call finds them, each window's block after the body, the
  matrix of normalised rows held at half a share by each of the two windows that read it), and the proof that
  the body meets the rule's obligation at every point.
-/
import proofs.«173406_j10788957848170_2_alg».proof.Proof.PairNextB

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's staging buffer -/

/-- At j = 0 the body's stores into the output's buffer tile it, so they cover it. -/
theorem coverFirst (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : isFirst i)
    (x0 : Vec F S1024x2048 .bf16) (x1 : Vec F S1024x2048 .bf16) (x2 : Vec F S1024x1 .f32) (x3 : Vec F S1x1024 .f32) (y : S1024x128.Idx) :
    ∃ pc ∈ (runFirst c i a2 h2 a3 h3 a4 h4 a5 h5 a6 h6 hc x0 x1 x2 x3).1, y ∈ pc.1.set :=
  View.cover_of_tiledL (runFirst c i a2 h2 a3 h3 a4 h4 a5 h5 a6 h6 hc x0 x1 x2 x3).1 S1024x128.size (by sl_kernel_rfl) y

/-- What the body leaves there at j = 0: its stores read back. -/
def outFirst (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : isFirst i)
    (x0 : Vec F S1024x2048 .bf16) (x1 : Vec F S1024x2048 .bf16) (x2 : Vec F S1024x1 .f32) (x3 : Vec F S1x1024 .f32) : Vec F S1024x128 .f32 :=
  VO.read (Elt F) (VO.writes (Elt F) VO.junk (runFirst c i a2 h2 a3 h3 a4 h4 a5 h5 a6 h6 hc x0 x1 x2 x3).1)

/-- At j > 0 the body's one store into the output's buffer covers it. -/
theorem coverNext (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : ¬isFirst i)
    (x0 : Vec F S1024x2048 .bf16) (x1 : Vec F S1024x2048 .bf16) (x2 : Vec F S1024x1 .f32) (x3 : Vec F S1x1024 .f32) (xo : Vec F S1024x128 .f32) (y : S1024x128.Idx) :
    ∃ pc ∈ (runNext c i a2 h2 a3 h3 a4 h4 a5 h5 a6 h6 hc x0 x1 x2 x3 xo).1, y ∈ pc.1.set :=
  View.cover_of_tiledL (runNext c i a2 h2 a3 h3 a4 h4 a5 h5 a6 h6 hc x0 x1 x2 x3 xo).1 S1024x128.size (by sl_kernel_rfl) y

/-- What the body leaves there at j > 0, from what the buffer held. -/
def outNext (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : ¬isFirst i)
    (x0 : Vec F S1024x2048 .bf16) (x1 : Vec F S1024x2048 .bf16) (x2 : Vec F S1024x1 .f32) (x3 : Vec F S1x1024 .f32) (xo : Vec F S1024x128 .f32) : Vec F S1024x128 .f32 :=
  VO.read (Elt F) (VO.writes (Elt F) VO.junk (runNext c i a2 h2 a3 h3 a4 h4 a5 h5 a6 h6 hc x0 x1 x2 x3 xo).1)

/-! ## The output block, point by point -/

/-- What the output's staging buffer holds after the body at point number `n`: at a multiple of 8 (j = 0) a fresh
    start, otherwise built on what point `n - 1` left (the buffer is not written back in between). -/
def outsAt (c : Dev nD) : (n : ℕ) → n < cfg1.N → Vec F S1024x128 .f32
  | 0, hn => outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((isFirst_iff ⟨0, hn⟩).mpr (Nat.zero_mod _)) (iblk V c 0 ⟨0, hn⟩) (iblk V c 1 ⟨0, hn⟩) (iblk V c 2 ⟨0, hn⟩) (iblk V c 3 ⟨0, hn⟩)
  | n + 1, hn =>
    if h0 : (n + 1) % 8 = 0 then
      outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((isFirst_iff ⟨n + 1, hn⟩).mpr h0) (iblk V c 0 ⟨n + 1, hn⟩) (iblk V c 1 ⟨n + 1, hn⟩) (iblk V c 2 ⟨n + 1, hn⟩) (iblk V c 3 ⟨n + 1, hn⟩)
    else
      outNext c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn))

theorem outsAt_first (c : Dev nD) (t : Fin cfg1.N) (h0 : t.val % 8 = 0) :
    outsAt V c t.val t.isLt = outFirst c (grid1.coords t) (ms0 t) (hs0 t) (ms1 t) (hs1 t) (ms2 t) (hs2 t) (ms3 t) (hs3 t) (ms4 t) (hs4 t) ((isFirst_iff t).mpr h0) (iblk V c 0 t) (iblk V c 1 t) (iblk V c 2 t) (iblk V c 3 t) := by
  obtain ⟨n, hn⟩ := t
  cases n with
  | zero => exact rfl
  | succ n => exact (dif_pos h0).trans rfl

theorem outsAt_next (c : Dev nD) (t : Fin cfg1.N) (h0 : ¬t.val % 8 = 0) :
    outsAt V c t.val t.isLt = outNext c (grid1.coords t) (ms0 t) (hs0 t) (ms1 t) (hs1 t) (ms2 t) (hs2 t) (ms3 t) (hs3 t) (ms4 t) (hs4 t) (fun h => h0 ((isFirst_iff t).mp h)) (iblk V c 0 t) (iblk V c 1 t) (iblk V c 2 t) (iblk V c 3 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline rule's data -/

/-- The arrays as the call finds them; after the body each input's buffer still at its block and the output's at
    `outsAt`; the untouched rest (the other call's staging buffers, the generator register) as the invariant;
    nothing owed; the normalised matrix, read through two windows, held at half a share by each. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outsAt V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = outsAt V c t.val t.isLt := by dsimp only [dat]

theorem before_0 (c : Dev nD) (t : Fin cfg1.N) (d) : (dat V c).before 0 t d = iblk V c 0 t :=
  before_in0 V (dat V c) (A_eq V c 0) (after_0 V c) t d
theorem before_1 (c : Dev nD) (t : Fin cfg1.N) (d) : (dat V c).before 1 t d = iblk V c 1 t :=
  before_in1 V (dat V c) (A_eq V c 1) (after_1 V c) t d
theorem before_2 (c : Dev nD) (t : Fin cfg1.N) (d) : (dat V c).before 2 t d = iblk V c 2 t :=
  before_in2 V (dat V c) (A_eq V c 2) (after_2 V c) t d
theorem before_3 (c : Dev nD) (t : Fin cfg1.N) (d) : (dat V c).before 3 t d = iblk V c 3 t :=
  before_in3 V (dat V c) (A_eq V c 3) (after_3 V c) t d

/-- At a point with j > 0 the output's current staging buffer holds what the body left at the point before: the
    block was not written back in between (that happens after j = 7 only). -/
theorem before_4_next (c : Dev nD) (t : Fin cfg1.N) (h0 : ¬t.val % 8 = 0) (d) :
    (dat V c).before 4 t d = outsAt V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat]

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t))

set_option maxHeartbeats 1600000 in
/-- The body at any point: the inputs' memrefs hold their blocks; j = 0 or not says which run applies, and at
    j > 0 the output's buffer holds what the point before left; the invariant and the core's dues pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  have hN : t.val < 64 := lt_of_lt_of_eq t.isLt (show cfg1.N = 64 from N_1)
  by_cases h0 : t.val % 8 = 0
  · rw [outsAt_first V c t h0]
    unfold outFirst
    iintro ⟨HΦ, Ho, ⟨%d0, H0⟩, ⟨%d1, H1⟩, ⟨%d2, H2⟩, ⟨%d3, H3⟩, ⟨%d4, H4⟩⟩
    iapply ((runFirst c (grid1.coords t) _ _ _ _ _ _ _ _ _ _ ((isFirst_iff t).mpr h0) (iblk V c 0 t) (iblk V c 1 t) (iblk V c 2 t) (iblk V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [outsAt_next V c t h0]
    simp only [before_4_next V c t h0]
    unfold outNext
    iintro ⟨HΦ, Ho, ⟨%d0, H0⟩, ⟨%d1, H1⟩, ⟨%d2, H2⟩, ⟨%d3, H3⟩, ⟨%d4, H4⟩⟩
    iapply ((runNext c (grid1.coords t) _ _ _ _ _ _ _ _ _ _ (fun h => h0 ((isFirst_iff t).mp h)) (iblk V c 0 t) (iblk V c 1 t) (iblk V c 2 t) (iblk V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverNext c _ _ _ _ _ _ _ _ _ _ _ _ _ _ _ _ _)

/-- The pipeline rule's obligation on the body, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.PairArraysB.lean ====
/-
  The pairwise pass's arrays and the buffers behind them.  Five windows, four buffers: the matrix of normalised
  rows is read through two windows.  Holding each of the four buffers whole is the same as holding, window by
  window, the squared norms (column and row form) and the output whole and the matrix twice at half a share.
-/
import proofs.«173406_j10788957848170_2_alg».proof.Proof.PairB
import Idealize.ShloMosaic.Lib.Pipeline.Regions

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The distinct buffers behind the five windows' arrays. -/
theorem arr_image : (Finset.univ.image (Pipeline.arrRef spec1) : Finset (Ref sig .tc)) = {main_v0_0, main_v0_1, main_v1, main_v2} := by decide

/-- Any data for this pipeline that holds the twice-read matrix at the two halves of a share, and the other two inputs whole. -/
structure Halved {c : Dev nD} (d : Dat τ (Elt F) Unit ℕ (UR sig nD τ) ℕ cfg1 c) : Prop where
  q0 : d.q 0 = fullShare.left
  q1 : d.q 1 = fullShare.right
  q2 : d.q 2 = fullShare
  q3 : d.q 3 = fullShare

theorem dat_halved (V : (c : Dev nD) → (b : Ref sig .tc) → Buf (Elt F) ((c : Thread nD τ).loc b)) (c : Dev nD) : Halved (dat V c) :=
  ⟨by dsimp only [dat], by dsimp only [dat], by dsimp only [dat], by dsimp only [dat]⟩

/-- The arrays, window by window at contents `G w`, are the four buffers whole at a valuation `V` that has `G w` at each
    window's buffer: the two half shares of the matrix join to the whole, and the whole splits into them. -/
theorem arrays_iff {c : Dev nD} (d : Dat τ (Elt F) Unit ℕ (UR sig nD τ) ℕ cfg1 c) (hd : Halved d)
    (V : (b : Ref sig .tc) → Buf (Elt F) ((c : Thread nD τ).loc b))
    (G : (w : Fin cfg1.W) → Buf (Elt F) ((cfg1.win w).arr.view.loc (c.tc : Thread nD τ)))
    (hG : ∀ w, G w = V (Pipeline.arrRef spec1 w)) :
    (d.arrays G : sProp 𝕄) ⊣⊢ Pipeline.arrBufs spec1 c V := by
  have e0 : ((cfg1.win 0).arr.view.loc (c.tc : Thread nD τ) ↦[(cfg1.win 0).arr.view.set]{d.share 0} G 0 : sProp 𝕄)
      = (((c.tc : Thread nD τ).loc main_v0_0) ↦{fullShare.left} V main_v0_0) := by
    rw [(arr_whole1 0).set_eq_univ, hG 0, show d.share 0 = d.q 0 from rfl, hd.q0]
  have e1 : ((cfg1.win 1).arr.view.loc (c.tc : Thread nD τ) ↦[(cfg1.win 1).arr.view.set]{d.share 1} G 1 : sProp 𝕄)
      = (((c.tc : Thread nD τ).loc main_v0_0) ↦{fullShare.right} V main_v0_0) := by
    rw [(arr_whole1 1).set_eq_univ, hG 1, show d.share 1 = d.q 1 from rfl, hd.q1]
  have e2 : ((cfg1.win 2).arr.view.loc (c.tc : Thread nD τ) ↦[(cfg1.win 2).arr.view.set]{d.share 2} G 2 : sProp 𝕄)
      = (((c.tc : Thread nD τ).loc main_v0_1) ↦{fullShare} V main_v0_1) := by
    rw [(arr_whole1 2).set_eq_univ, hG 2, show d.share 2 = d.q 2 from rfl, hd.q2]
  have e3 : ((cfg1.win 3).arr.view.loc (c.tc : Thread nD τ) ↦[(cfg1.win 3).arr.view.set]{d.share 3} G 3 : sProp 𝕄)
      = (((c.tc : Thread nD τ).loc main_v1) ↦{fullShare} V main_v1) := by
    rw [(arr_whole1 3).set_eq_univ, hG 3, show d.share 3 = d.q 3 from rfl, hd.q3]
  have e4 : ((cfg1.win 4).arr.view.loc (c.tc : Thread nD τ) ↦[(cfg1.win 4).arr.view.set]{d.share 4} G 4 : sProp 𝕄)
      = (((c.tc : Thread nD τ).loc main_v2) ↦{fullShare} V main_v2) := by
    rw [(arr_whole1 4).set_eq_univ, hG 4, show d.share 4 = fullShare from rfl]
  have hsh : ((((c.tc : Thread nD τ).loc main_v0_0) ↦{fullShare} V main_v0_0) : sProp 𝕄)
      ⊣⊢ iprop((((c.tc : Thread nD τ).loc main_v0_0) ↦{fullShare.left} V main_v0_0) ∗ (((c.tc : Thread nD τ).loc main_v0_0) ↦{fullShare.right} V main_v0_0)) :=
    pointsTo_share (PosShare.mem_left_op_right fullShare)
  have hL : (Pipeline.arrBufs spec1 c V : sProp 𝕄)
      = iprop((((c.tc : Thread nD τ).loc main_v0_0) ↦{fullShare} V main_v0_0) ∗ (((c.tc : Thread nD τ).loc main_v0_1) ↦{fullShare} V main_v0_1)
          ∗ (((c.tc : Thread nD τ).loc main_v1) ↦{fullShare} V main_v1) ∗ (((c.tc : Thread nD τ).loc main_v2) ↦{fullShare} V main_v2)) := by
    unfold Pipeline.arrBufs
    exact bigSep_eq_bigSepL_of_eq [main_v0_0, main_v0_1, main_v1, main_v2] (by decide) (by decide) _
  rw [hL]
  unfold Dat.arrays
  rw [bigSep_W1, e0, e1, e2, e3, e4]
  constructor
  · iintro ⟨Ha, Hb, H2, H3, H4⟩
    isplitl [Ha Hb]
    · iapply hsh.2; isplitl [Ha] <;> iassumption
    isplitl [H2]; · iexact H2
    isplitl [H3]; · iexact H3
    iexact H4
  · iintro ⟨Hab, H2, H3, H4⟩
    ihave H := hsh.1 $$ Hab
    icases H with ⟨Ha, Hb⟩
    isplitl [Ha]; · iexact Ha
    isplitl [Hb]; · iexact Hb
    isplitl [H2]; · iexact H2
    isplitl [H3]; · iexact H3
    iexact H4

end Cert.Kernel.R1

end
-- ==== Proof.MainRunB.lean ====
/-
  The whole program, segment by segment: the normalising call, a reshape of the squared norms from a column to
  a row, the pairwise call, and the closing sums and quotients.  Between segments each TensorCore holds every
  buffer of the program at a known contents: at launch the memory; after the first call the normalised rows and
  their squared norms where that call's write-backs put them; after the second the lane sums; the host
  operations in between applied on top.  Each call enters from these contents, splits its arrays out of them
  and puts them back at its exit.
-/
import proofs.«173406_j10788957848170_2_alg».proof.Proof.Region0B
import proofs.«173406_j10788957848170_2_alg».proof.Proof.PairArraysB
import proofs.«173406_j10788957848170_2_alg».proof.Proof.Gen.Kernel.Regions
import Idealize.ShloMosaic.Lib.Pipeline.RegionsLoop
import Idealize.ShloMosaic.Lib.Pipeline.FrameSuffix

set_option maxRecDepth 16384

noncomputable section

namespace Cert.Kernel.RunK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ)

/-! ## The contents between segments -/

/-- What the first call is entered from, read at a TensorCore reference. -/
abbrev E0 (c : Dev nD) (b : Ref sig .tc) : Buf (Elt F) ((c : Thread nD τ).loc b) := V0 m c b

/-- After the first call: its arrays at what its write-backs leave, everything else as launched. -/
def X1 (c : Dev nD) : Valuation τ sig (Elt F) :=
  Pipeline.withArrays spec0 c (V0 m c) fun w => (R0.dat0 (E0 m) c).arrAt w cfg0.N

/-- The first call's results, as the contents that ride through the next segments. -/
def outs1 : Outs (F := F) := fun _ r c => X1 m c r

/-- What the second call is entered from: the reshape applied on top. -/
abbrev E1 (c : Dev nD) (b : Ref sig .tc) : Buf (Elt F) ((c : Thread nD τ).loc b) := V2 m (outs1 m) c b

/-- After the second call: its output array at what its write-backs leave. -/
def X3 (c : Dev nD) : Valuation τ sig (Elt F) :=
  Function.update (V2 m (outs1 m) c) (Proc.devRef .tc main_v2) ((R1.dat (E1 m) c).arrAt 4 cfg1.N)

/-- What the two calls leave, by segment number. -/
def outs : Outs (F := F) := fun J r c => if J = 3 then X3 m c r else X1 m c r

theorem V1_eq (c : Dev nD) : V1 m (outs m) c = V1 m (outs1 m) c := rfl
theorem V2_eq (c : Dev nD) : V2 m (outs m) c = V2 m (outs1 m) c := rfl

theorem X1_arr (c : Dev nD) (w : Fin cfg0.W) :
    X1 m c (Proc.devRef .tc (Pipeline.arrRef spec0 w)) = (R0.dat0 (E0 m) c).arrAt w cfg0.N := by
  unfold X1; exact Pipeline.withArrays_arr spec0 launch0.win.arr_inj c _ _ w

/-! ## The proof data of both calls and what rides along -/

def pdats : (p : Fin 2) → (c : Dev nD) → Dat τ (Elt F) Unit ℕ (UR sig nD τ) ℕ (cfgs p) c
  | ⟨0, _⟩ => fun c => R0.dat0 (E0 m) c
  | ⟨1, _⟩ => fun c => R1.dat (E1 m) c

abbrev Lz : GSem nD τ sig → Finset Unit := fun _ => ∅
abbrev lvz : GSem nD τ sig → Unit → ℕ := fun _ _ => 0
/-- Beside the buffers: the generator register at some state, and nothing owed. -/
abbrev Rr (c : Dev nD) : sProp 𝕄 := iprop((∃ r, prngReg c r) ∗ ∃ W, owes (c : Thread nD τ) (0 : CellTallies nD τ sig Unit) W)

/-! ## The first call as a segment -/

theorem hF0 (c : Dev nD) (w : Fin cfg0.W) : (R0.dat0 (E0 m) c).arrAt w cfg0.N = V1 m (outs m) c (Pipeline.arrRef spec0 w) := by
  match w with
  | ⟨0, _⟩ =>
    exact ((R0.dat0 (E0 m) c).arrAt_in 0 rfl _).trans ((R0.A_eq0 (E0 m) c 0).trans (V1_of m (outs m) c main_arg0 (by decide)).symm)
  | ⟨1, _⟩ =>
    refine (X1_arr m c 1).symm.trans ?_
    show outs m 1 main_v0_0 c = V1 m (outs m) c main_v0_0
    unfold V1
    rw [Function.update_of_ne (StableHlo.devRef_ne_of_ne (by decide) : (Proc.devRef .tc main_v0_0 : DevRef τ sig) ≠ Proc.devRef .tc main_v0_1), Function.update_self]
  | ⟨2, _⟩ =>
    refine (X1_arr m c 2).symm.trans ?_
    show outs m 1 main_v0_1 c = V1 m (outs m) c main_v0_1
    unfold V1
    rw [Function.update_self]

theorem hrest0 (c : Dev nD) : ∀ b, b ∉ Finset.univ.image (Pipeline.arrRef spec0) → V1 m (outs m) c b = E0 m c b :=
  fun b hb => V1_of m (outs m) c b (fun h => hb (by
    rcases List.mem_cons.mp h with rfl | h
    · exact Finset.mem_image.mpr ⟨1, Finset.mem_univ _, rfl⟩
    · rcases List.mem_cons.mp h with rfl | h
      · exact Finset.mem_image.mpr ⟨2, Finset.mem_univ _, rfl⟩
      · exact absurd h (List.not_mem_nil)))

set_option backward.isDefEq.respectTransparency.types false in
def reg0 : RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (R0.body_obligation0 (E0 m) c).loose
  hwaits := Pipeline.hwaits_of_owed_zero _ _ _ _ Lz lvz 0 fun _ _ => rfl
  pre c := iprop(StableHlo.held (c : Thread nD τ) (Pipeline.ucRefs τ sig) (V0 m c) ∗ Rr c)
  post c := iprop(StableHlo.held (c : Thread nD τ) (Pipeline.ucRefs τ sig) (V1 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call as a segment -/

theorem arr_unscoped1 : ∀ w, (Pipeline.arrRef spec1 w).isScoped = false := by decide

theorem hF1 (c : Dev nD) (w : Fin cfg1.W) : (R1.dat (E1 m) c).arrAt w cfg1.N = V3 m (outs m) c (Pipeline.arrRef spec1 w) := by
  match w with
  | ⟨0, _⟩ =>
    exact ((R1.dat (E1 m) c).arrAt_in 0 rfl _).trans ((R1.A_eq (E1 m) c 0).trans (V3_of m (outs m) c main_v0_0 (by decide)).symm)
  | ⟨1, _⟩ =>
    exact ((R1.dat (E1 m) c).arrAt_in 1 rfl _).trans ((R1.A_eq (E1 m) c 1).trans (V3_of m (outs m) c main_v0_0 (by decide)).symm)
  | ⟨2, _⟩ =>
    exact ((R1.dat (E1 m) c).arrAt_in 2 rfl _).trans ((R1.A_eq (E1 m) c 2).trans (V3_of m (outs m) c main_v0_1 (by decide)).symm)
  | ⟨3, _⟩ =>
    exact ((R1.dat (E1 m) c).arrAt_in 3 rfl _).trans ((R1.A_eq (E1 m) c 3).trans (V3_of m (outs m) c main_v1 (by decide)).symm)
  | ⟨4, _⟩ =>
    show _ = V3 m (outs m) c main_v2
    unfold V3
    rw [Function.update_self]
    show _ = X3 m c (Proc.devRef .tc main_v2)
    unfold X3
    rw [Function.update_self]
    rfl

theorem hrest1 (c : Dev nD) : ∀ b, b ∉ Finset.univ.image (Pipeline.arrRef spec1) → V3 m (outs m) c b = E1 m c b :=
  fun b hb => V3_of m (outs m) c b (fun h => hb (by
    rcases List.mem_cons.mp h with rfl | h
    · exact Finset.mem_image.mpr ⟨4, Finset.mem_univ _, rfl⟩
    · exact absurd h (List.not_mem_nil)))

set_option backward.isDefEq.respectTransparency.types false in
def reg1 : RegionSeg (pcfgs (F := F)) adm (pdats m) () defs₀ Variants.none Lz lvz 1 where
  win := winFacts₀1
  block_pos := block_pos1
  stage_whole := stage_whole1
  K := PEmpty
  osem k := k.elim
  ho := Pipeline.OwnSemFacts.none _
  hbody c := (R1.body_obligation (E1 m) c).loose
  hwaits := Pipeline.hwaits_of_owed_zero _ _ _ _ Lz lvz 1 fun _ _ => rfl
  pre c := iprop(StableHlo.held (c : Thread nD τ) (Pipeline.ucRefs τ sig) (V2 m (outs1 m) c) ∗ Rr c)
  post c := iprop(StableHlo.held (c : Thread nD τ) (Pipeline.ucRefs τ sig) (V3 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hs := Pipeline.unscopedBufs_split₀ (Ix := Unit) (Name := ℕ) (U := UR sig nD τ) (Lvl := ℕ) (Val := Elt F) cfgs 1 arr_unscoped1 c (E1 m c)
    rw [Pipeline.unscopedBufs_held] at hs
    have ha := (R1.arrays_iff (R1.dat (E1 m) c) (R1.dat_halved (E1 m) c) (E1 m c) (R1.dat (E1 m) c).A (R1.A_eq (E1 m) c)).2
    have hs' := Entails.of_eq hs
    iintro ⟨⟨Hub, Hp, HO⟩, -, -⟩
    ihave H := hs' $$ Hub
    icases H with ⟨Hb, Hrest⟩
    ihave Ha := ha $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs := Pipeline.unscopedBufs_split₀ (Ix := Unit) (Name := ℕ) (U := UR sig nD τ) (Lvl := ℕ) (Val := Elt F) cfgs 1 arr_unscoped1 c (fun b => V3 m (outs m) c b)
    rw [Pipeline.unscopedBufs_held] at hs
    have ha := (R1.arrays_iff (R1.dat (E1 m) c) (R1.dat_halved (E1 m) c) (fun b => V3 m (outs m) c b) ((R1.dat (E1 m) c).arrAt · cfg1.N) (hF1 m c)).1
    have hr : (Pipeline.unscopedRest (Ix := Unit) (Name := ℕ) (U := UR sig nD τ) (Lvl := ℕ) spec1 c (E1 m c) : sProp 𝕄)
        = Pipeline.unscopedRest spec1 c (fun b => V3 m (outs m) c b) := by
      unfold Pipeline.unscopedRest
      exact bigSep_congr fun b hb =>
        congrArg (fun v => ((((c.tc : Thread nD τ).loc b) ↦{fullShare} v) : sProp 𝕄)) (hrest1 m c b (Finset.mem_sdiff.mp hb).2).symm
    iintro ⟨Ha, HO, HY, Hrest⟩
    imodintro
    isplitl [Ha Hrest]
    · iapply (Entails.of_eq hs.symm)
      isplitl [Ha]
      · iapply ha; iexact Ha
      iapply (Entails.of_eq hr); iexact Hrest
    isplitl [HY]; · iexact HY
    unfold Pipeline.Dat.owesAt Pipeline.owesWithin
    icases HO with ⟨%W, -, HO⟩; iexists W; iexact HO

/-! ## The run -/

variable (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lz lvz)
    ⊢ (|={Set.univ}=> bigSep Finset.univ (fun c : Dev nD => Rr (F := F) c) : sProp 𝕄) := by
  refine Pipeline.initEach Lz lvz fun c => ?_
  iintro ⟨⟨-, HO, -, Hp, -⟩, -⟩
  imodintro
  isplitl [Hp]; · iexists _; iexact Hp
  iexists ∅; iexact HO

set_option backward.isDefEq.respectTransparency.types false in
/-- Every weakly fair execution of the program terminates, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_cond m emb₁ () Variants.none Lz lvz (fun _ _ => rfl) ρ (outs m) (pdats m) 0 (fun _ => iprop(emp))
    (initOf (Pipeline.cells cfgs cellOf_inj) (Pipeline.launchToks cfgs cellOf_inj)) hu₀
    (fun _ c => Rr c) (hE0 ρ) (fun c => by iintro ⟨-, H⟩; iexact H)
    (reg0 m) (fun _ => .rfl) (fun _ => .rfl)
    (reg1 m) (fun c => .rfl) (fun _ => .rfl)

end Cert.Kernel.RunK

end
-- ==== Proof.Spec.lean ====
/-
  The mathematics both programs compute, stated once over plain index types, with no program in sight.

  Input: a matrix `x` of 8192 rows and 2048 columns of extended reals.  Each row is divided by the larger of
  its Euclidean norm and a small positive constant; `sq i` is the squared norm of the normalised row `i`, and
  `gram i j` the inner product of the normalised rows `i` and `j`.  One side forms
  `exp (min (2·gram i j − sq i − sq j) 0)`, the other `exp (−max (sq i + sq j − 2·gram i j) 0)`; each row is
  summed over `j`, divided by 8191, the quotients summed and divided by 8192.  The first side sums a row in
  pieces: eight column blocks of 1024, each block folded into 128 lanes by adding its eight sub-blocks of 128
  columns, the lanes added at the very end.
-/
import Idealize.ShloMosaic.PureOps.Ideal
import Idealize.ShloMosaic.Lib.ValueIdx

noncomputable section

namespace Cert.Dispersion

open Idealize.ShloMosaic Idealize.ShloMosaic.ValueIdx

/-- A matrix of 8192 rows and 2048 columns, by row and column. -/
abbrev Mat : Type := Fin 8192 → Fin 2048 → EReal

/-- A rank-two array read by row and column. -/
def asMat (a : (⟨2, ![8192, 2048]⟩ : Shape).Idx → EReal) : Mat := fun i d => a (ix2 i d)

/-- The small constant under the norm (the f32 nearest 1e-12), the factor two, and the two divisors. -/
def eps : EReal := Ideal.ofBits .f32 0x2B8CBCCC#32
def two : EReal := Ideal.ofBits .f32 0x40000000#32
def c8191 : EReal := Ideal.ofBits .f32 0x45FFF800#32
def c8192 : EReal := Ideal.ofBits .f32 0x46000000#32

/-- The sum of a row's squares. -/
def ss (x : Mat) (i : Fin 8192) : EReal := ∑ d : Fin 2048, x i d * x i d
/-- The divisor of row `i`: its norm, or the small constant if that is larger. -/
def den (x : Mat) (i : Fin 8192) : EReal := max (Ideal.sqrt (ss x i)) eps
/-- The normalised matrix. -/
def xn (x : Mat) : Mat := fun i d => Ideal.div (x i d) (den x i)
/-- The squared norm of the normalised row `i`. -/
def sq (x : Mat) (i : Fin 8192) : EReal := ∑ d : Fin 2048, xn x i d * xn x i d
/-- The inner product of the normalised rows `i` and `j`. -/
def gram (x : Mat) (i j : Fin 8192) : EReal := ∑ d : Fin 2048, xn x i d * xn x j d

/-- One side's term at `(i, j)`: the exponential of the negated squared distance, clamped from above at 0. -/
def ek (x : Mat) (i j : Fin 8192) : EReal := Ideal.exp (min (two * gram x i j - sq x i - sq x j) 0)
/-- The other side's term: the squared distance clamped from below at 0, negated, exponentiated. -/
def er (x : Mat) (i j : Fin 8192) : EReal := Ideal.exp (-(max (sq x i + sq x j - two * gram x i j) 0))

/-- Column `128·s + l` of a block of 1024 columns. -/
def lane (s : Fin 8) (l : Fin 128) : Fin 1024 := ⟨s.val * 128 + l.val, by have := s.isLt; have := l.isLt; omega⟩
/-- Row (or column) `1024·k + r` of the whole matrix (`k < 8` in every use; reduced mod 8192 to be total). -/
def glob (k : ℕ) (r : Fin 1024) : Fin 8192 := ⟨(k * 1024 + r.val) % 8192, Nat.mod_lt _ (by decide)⟩

/-- What column block `k` adds to lane `l` of row `i`: its eight sub-blocks' terms at that lane. -/
def part (x : Mat) (i : Fin 8192) (l : Fin 128) (k : ℕ) : EReal := ∑ s : Fin 8, ek x i (glob k (lane s l))
/-- Lane `l` of row `i` after the first `n` column blocks. -/
def accTo (x : Mat) (i : Fin 8192) (l : Fin 128) (n : ℕ) : EReal := ∑ k ∈ Finset.range n, part x i l k
/-- The lanes' sum of row `i` after all eight column blocks. -/
def rowK (x : Mat) (i : Fin 8192) : EReal := ∑ l : Fin 128, accTo x i l 8
/-- The other side's row sum. -/
def rowR (x : Mat) (i : Fin 8192) : EReal := ∑ j : Fin 8192, er x i j

/-- The common ending: each row sum divided by 8191, the quotients summed, the total divided by 8192. -/
def tail (r : Fin 8192 → EReal) : EReal := Ideal.div (∑ i : Fin 8192, Ideal.div (r i) c8191) c8192

def resultK (x : Mat) : EReal := tail (rowK x)
def resultR (x : Mat) : EReal := tail (rowR x)

/-- Every entry is a real number. -/
def Finite (x : Mat) : Prop := ∀ i d, ∃ r : ℝ, x i d = (r : EReal)

end Cert.Dispersion

end
-- ==== Proof.HostStretches.lean ====
/-
  The two stretches of whole-array operations that @main runs between and after its two kernel regions, as
  functions of the buffers' contents before them.

  The first turns the column of the 8192 rows' squared norms into a row (a reshape: the same elements in the
  same row-major order).  The second takes the 8192 × 128 array of lane sums, adds up each row's 128 lanes,
  divides each row sum by 8191, adds up the 8192 quotients and divides by 8192: the common ending `tail` of
  the specification applied to the rows' lane sums.  Both hold for any contents of the buffers.
-/
import proofs.«173406_j10788957848170_2_alg».proof.Proof.Gen.KernelIdeal.Launch
import proofs.«173406_j10788957848170_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.RunK

open Idealize.ShloMosaic Idealize.ShloMosaic.TcCoe Idealize.ShloMosaic.ValueIdx
open Cert.KernelIdeal.Gen

/-- The first host stretch turns the column of 8192 squared norms into a row: entry `(0, c)` of the row is entry
    `(c, 0)` of the column (both are element `c` in row-major order). -/
theorem hostOps1_v1 (W : Valuation τ sig (Elt Ideal)) (c : Fin 8192) :
    (StableHlo.after hostOps1 W (Proc.devRef .tc main_v1) : S1x8192.Idx → EReal) (ix2 0 c)
      = (W (Proc.devRef .tc main_v0_1) : S8192x1.Idx → EReal) (ix2 c 0) := by
  have e : (StableHlo.after hostOps1 W (Proc.devRef .tc main_v1) : S1x8192.Idx → EReal)
      = shapeCast S1x8192 (W (Proc.devRef .tc main_v0_1) : S8192x1.Idx → EReal) shapeCasts_S8192x1_S1x8192 := by
    after_results
    rfl
  rw [e]
  refine shapeCast_apply (s := S8192x1) (t := S1x8192) _ _ (ix2 0 c) (ix2 c 0) ?_
  show (S8192x1.rowMajor (ix2 c 0)).val = (S1x8192.rowMajor (ix2 0 c)).val
  rw [Shape.rowMajor_val_two, Shape.rowMajor_val_two]
  show c.val * 1 + 0 = 0 * 8192 + c.val
  omega

/-- The same at any index `j` of the row: its first coordinate can only be `0`. -/
theorem hostOps1_v1_idx (W : Valuation τ sig (Elt Ideal)) (j : S1x8192.Idx) :
    (StableHlo.after hostOps1 W (Proc.devRef .tc main_v1) : S1x8192.Idx → EReal) j
      = (W (Proc.devRef .tc main_v0_1) : S8192x1.Idx → EReal) (ix2 (j 1) 0) := by
  obtain ⟨p, q, rfl⟩ : ∃ (p : Fin 1) (q : Fin 8192), j = ix2 p q := ⟨j 0, j 1, eq_ix2 j⟩
  obtain rfl : p = 0 := Subsingleton.elim _ _
  exact hostOps1_v1 W q

/-- A host sum over the 128 lanes of an 8192 × 128 array, read at row `i`: the initial value plus the row's lanes. -/
theorem laneSum_apply (y : S8192x128.Idx → EReal) (z : S_.Idx → EReal) (i : Fin 8192) :
    (Host.reduceAdd (F := Ideal) (φ := .f32) y z reducesTo_S8192x128_S8192_d1 h_S_ : S8192.Idx → EReal) (ix1 i)
      = z (Shape.Idx.first h_S_) + ∑ l : Fin 128, y (ix2 i l) := by
  simp only [Host.reduceAdd, Ideal.hostReduceAdd_def]
  rw [Ideal.hostReduceAdd_single reducesTo_S8192x128_S8192_d1 (by decide)]
  refine congrArg (_ + ·) (Finset.sum_congr rfl fun l _ => ?_)
  exact congrArg y (funext fun a => Fin.ext (by match a with | ⟨0, _⟩ => rfl | ⟨1, _⟩ => rfl))

/-- An index of a vector of 8192 entries is its one coordinate … -/
def vecIdx : S8192.Idx ≃ Fin 8192 where
  toFun j := j 0
  invFun := ix1
  left_inv j := (eq_ix1 j).symm
  right_inv _ := rfl
/-- … so a sum over the indices is the sum over the coordinate. -/
theorem sum_vec (f : S8192.Idx → EReal) : ∑ j, f j = ∑ i : Fin 8192, f (ix1 i) := by
  rw [← Equiv.sum_comp vecIdx.symm f]
  rfl

/-- A host sum of a vector of 8192 entries down to a scalar: the initial value plus the entries. -/
theorem allSum_apply (y : S8192.Idx → EReal) (z : S_.Idx → EReal) (j : S_.Idx) :
    (Host.reduceAdd (F := Ideal) (φ := .f32) y z reducesTo_S8192_S_d0 h_S_ : S_.Idx → EReal) j
      = z (Shape.Idx.first h_S_) + ∑ i : Fin 8192, y (ix1 i) := by
  simp only [Host.reduceAdd, Ideal.hostReduceAdd_def]
  rw [Ideal.hostReduceAdd_total reducesTo_S8192_S_d0 (fun b => b.elim0) y _ j, sum_vec]

/-- The second host stretch leaves in the result buffer the specification's common ending applied to the rows'
    lane sums: each row of the 8192 × 128 array summed over its 128 lanes (from the initial value 0), divided by
    8191, the quotients summed (again from 0) and the total divided by 8192. -/
theorem hostOps2_v7 (W : Valuation τ sig (Elt Ideal)) :
    (StableHlo.after hostOps2 W (Proc.devRef .tc main_v7) : S_.Idx → EReal)
      = fun _ => Cert.Dispersion.tail (fun i => ∑ l : Fin 128, (W (Proc.devRef .tc main_v2) : S8192x128.Idx → EReal) (ix2 i l)) := by
  have e : (StableHlo.after hostOps2 W (Proc.devRef .tc main_v7) : S_.Idx → EReal)
      = Host.divf (F := Ideal) (Host.reduceAdd (F := Ideal) (Host.divf (F := Ideal) (Host.reduceAdd (F := Ideal) (W (Proc.devRef .tc main_v2) : S8192x128.Idx → EReal) (constant (F := Ideal) S_ .f32 0x00000000#32) reducesTo_S8192x128_S8192_d1 h_S_) (broadcastInDim S8192 ![] bcast_S_S8192 (constant (F := Ideal) S_ .f32 0x45FFF800#32))) (constant (F := Ideal) S_ .f32 0x00000000#32) reducesTo_S8192_S_d0 h_S_) (constant (F := Ideal) S_ .f32 0x46000000#32) := by
    after_results
  rw [e]
  funext j
  unfold Cert.Dispersion.tail Cert.Dispersion.c8191 Cert.Dispersion.c8192
  show FloatOps.hostDivf (Host.reduceAdd (F := Ideal) (φ := .f32) _ _ reducesTo_S8192_S_d0 h_S_ j) (constant (F := Ideal) S_ .f32 0x46000000#32 j) = _
  rw [Ideal.hostDivf_def, allSum_apply, constant_apply, constant_apply, Ideal.ofBits_zero_f32, zero_add]
  refine congrArg (Ideal.div · _) (Finset.sum_congr rfl fun i _ => ?_)
  show FloatOps.hostDivf (Host.reduceAdd (F := Ideal) (φ := .f32) _ _ reducesTo_S8192x128_S8192_d1 h_S_ (ix1 i)) (broadcastInDim S8192 ![] bcast_S_S8192 (constant (F := Ideal) S_ .f32 0x45FFF800#32) (ix1 i)) = _
  rw [Ideal.hostDivf_def, laneSum_apply, constant_apply, Ideal.ofBits_zero_f32, zero_add,
    broadcastInDim_apply _ bcast_S_S8192 _ (ix1 i) ix0 (fun a => a.elim0), constant_apply]

end Cert.KernelIdeal.RunK

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.PayIdx.lean ====
/-
  The arithmetic of the two kernel bodies, read one entry at a time over the extended reals.

  The first body takes a block of 512 rows and 2048 columns: every entry is divided by the larger of its row's
  Euclidean norm and a small positive constant, and the squared norm of each quotient row is kept as a column.
  The second body takes two blocks of 1024 normalised rows, forms their 1024 by 1024 table of inner products,
  turns each into exp (min (2·g − a − b) 0) with a and b the two rows' squared norms, and adds the table's
  eight sub-blocks of 128 columns, lane by lane, onto a block of 1024 rows and 128 lanes.
-/
import proofs.«173406_j10788957848170_2_alg».proof.Proof.Gen.KernelIdeal.Skeleton
import proofs.«173406_j10788957848170_2_alg».proof.Proof.Spec
import proofs.«173406_j10788957848170_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdx

open Cert.KernelIdeal Cert.KernelIdeal.Gen Cert.Dispersion Idealize.ShloMosaic Idealize.ShloMosaic.ValueIdx

/-! ## Sums along one axis, read at an index -/

/-- A matrix summed along its rows: entry `p` of the result is the sum of row `p`. -/
theorem rowSum_apply {a b : ℕ} (x : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  refine Finset.sum_congr rfl fun d _ => congrArg x ?_
  funext c
  match c with
  | ⟨0, _⟩ => rfl
  | ⟨1, _⟩ => rfl

/-- A stack of `n` matrices summed along its middle axis: entry `(r, l)` of the result is the sum over the
    middle coordinate `s` of the entries `(r, s, l)`. -/
theorem midSum_apply {a n b : ℕ} (x : FVec Ideal ⟨3, ![a, n, b]⟩ .f32)
    (h : (⟨3, ![a, n, b]⟩ : Shape).Reduces [1] ⟨2, ![a, b]⟩) (hφ : FKind.Formats .f32)
    (hacc : (0x00000000#32 : BitVec 32) = FKind.add.neutral .f32 hφ) (r : Fin a) (l : Fin b) :
    multiReduction .add [1] ⟨2, ![a, b]⟩ x 0x00000000#32 h hφ hacc (ix2 r l) = ∑ s : Fin n, x (ix3 r s l) := by
  refine (Ideal.multiReduction_add_single x 0x00000000#32 h hφ hacc (ix2 r l)).trans ?_
  refine Finset.sum_congr rfl fun s _ => congrArg x ?_
  funext c
  match c with
  | ⟨0, _⟩ => rfl
  | ⟨1, _⟩ => rfl
  | ⟨2, _⟩ => rfl

variable [Cert.KernelIdeal.Facts]

/-! ## The normalising body -/

/-- The zero block the pairwise body starts a row block's lanes from. -/
theorem pay_zero_apply (r : Fin 1024) (l : Fin 128) : k1_pay1 (F := Ideal) (ix2 r l) = 0 := by
  unfold k1_pay1
  exact Ideal.ofBits_zero_f32

/-- The normalised block at `(p, q)`: the entry over the larger of its row's norm and the small constant. -/
theorem pay_norm_apply (v0 : Vec Ideal S512x2048 .f32) (p : Fin 512) (q : Fin 2048) :
    k0_pay1 (F := Ideal) v0 (ix2 p q)
      = Ideal.div (v0 (ix2 p q)) (max (Ideal.sqrt (∑ d : Fin 2048, v0 (ix2 p d) * v0 (ix2 p d))) eps) := by
  unfold k0_pay1
  refine congrArg (Ideal.div (v0 (ix2 p q))) ?_
  refine (Cert.LibKeepdims.broadcastTo_a1_ab_apply _ _ p q).trans ?_
  refine congrArg (fun t => max (Ideal.sqrt t) eps) ?_
  refine (Cert.LibKeepdims.shapeCast_a_a1_apply _ _ p 0).trans ?_
  exact rowSum_apply _ _ _ _ p

/-- The block as stored in the narrower format is the same block of extended reals. -/
theorem pay_store_apply (v0 : Vec Ideal S512x2048 .f32) (p : Fin 512) (q : Fin 2048) :
    k0_pay2 (F := Ideal) v0 (ix2 p q) = k0_pay1 (F := Ideal) v0 (ix2 p q) := rfl

/-- The column of squared norms at row `p`: the sum of the squares of the normalised row. -/
theorem pay_sq_apply (v0 : Vec Ideal S512x2048 .f32) (p : Fin 512) :
    k0_pay3 (F := Ideal) v0 (ix2 p (0 : Fin 1))
      = ∑ d : Fin 2048, k0_pay1 (F := Ideal) v0 (ix2 p d) * k0_pay1 (F := Ideal) v0 (ix2 p d) := by
  unfold k0_pay3
  refine (Cert.LibKeepdims.shapeCast_a_a1_apply _ _ p 0).trans ?_
  exact rowSum_apply _ _ _ _ p

/-! ## The pairwise body -/

/-- The first factor's row, on the left operand's kept axis. -/
theorem gramL0 (i : S1024x1024.Idx) (k : dot_S1024x2048_S1024x2048_S1024x1024_1_1_0_0_n_n.contr.Idx) : (dot_S1024x2048_S1024x2048_S1024x1024_1_1_0_0_n_n.lhsIdx i k 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl

/-- The second factor's row, on the right operand's kept axis. -/
theorem gramR0 (i : S1024x1024.Idx) (k : dot_S1024x2048_S1024x2048_S1024x1024_1_1_0_0_n_n.contr.Idx) : (dot_S1024x2048_S1024x2048_S1024x1024_1_1_0_0_n_n.rhsIdx i k 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl

/-- The first factor's column is the contraction's coordinate. -/
theorem gramL1 (i : S1024x1024.Idx) (k : dot_S1024x2048_S1024x2048_S1024x1024_1_1_0_0_n_n.contr.Idx) : (dot_S1024x2048_S1024x2048_S1024x1024_1_1_0_0_n_n.lhsIdx i k 1).val = (k ⟨0, by decide⟩).val :=
  dot_S1024x2048_S1024x2048_S1024x1024_1_1_0_0_n_n.lhsIdx_val_of_single rfl i k

/-- The second factor's column is the contraction's coordinate. -/
theorem gramR1 (i : S1024x1024.Idx) (k : dot_S1024x2048_S1024x2048_S1024x1024_1_1_0_0_n_n.contr.Idx) : (dot_S1024x2048_S1024x2048_S1024x1024_1_1_0_0_n_n.rhsIdx i k 1).val = (k ⟨0, by decide⟩).val :=
  dot_S1024x2048_S1024x2048_S1024x1024_1_1_0_0_n_n.rhsIdx_val_of_single rfl i k

/-- The table of inner products at `(r, c)`: row `r` of the first block against row `c` of the second, both
    contracted along their 2048 columns. -/
theorem gram_apply (v4 v6 : FVec Ideal S1024x2048 .bf16) (r c : Fin 1024) :
    matmul dot_S1024x2048_S1024x2048_S1024x1024_1_1_0_0_n_n none v4 v6 (constant (F := Ideal) S1024x1024 .f32 0x00000000#32) (ix2 r c)
      = ∑ d : Fin 2048, v4 (ix2 r d) * v6 (ix2 c d) := by
  refine (Ideal.matmul_constant_zero_apply dot_S1024x2048_S1024x2048_S1024x1024_1_1_0_0_n_n none v4 v6 (ix2 r c)).trans ?_
  rw [← Equiv.sum_comp (contrEquiv1 dot_S1024x2048_S1024x2048_S1024x1024_1_1_0_0_n_n 2048 rfl rfl).symm]
  refine Finset.sum_congr rfl fun d _ => ?_
  have hd := contrEquiv1_symm_val dot_S1024x2048_S1024x2048_S1024x1024_1_1_0_0_n_n 2048 rfl rfl d
  have el : dot_S1024x2048_S1024x2048_S1024x1024_1_1_0_0_n_n.lhsIdx (ix2 r c) ((contrEquiv1 dot_S1024x2048_S1024x2048_S1024x1024_1_1_0_0_n_n 2048 rfl rfl).symm d) = ix2 r d :=
    funext fun a => Fin.ext (by
      match a with
      | ⟨0, _⟩ => exact gramL0 _ _
      | ⟨1, _⟩ => exact (gramL1 _ _).trans hd)
  have er : dot_S1024x2048_S1024x2048_S1024x1024_1_1_0_0_n_n.rhsIdx (ix2 r c) ((contrEquiv1 dot_S1024x2048_S1024x2048_S1024x1024_1_1_0_0_n_n 2048 rfl rfl).symm d) = ix2 c d :=
    funext fun a => Fin.ext (by
      match a with
      | ⟨0, _⟩ => exact gramR0 _ _
      | ⟨1, _⟩ => exact (gramR1 _ _).trans hd)
  rw [el, er]

/-- A table of 1024 columns cut into eight sub-blocks of 128: entry `(r, s, l)` of the cut table is entry
    `(r, 128·s + l)` of the table. -/
theorem cut_apply {α : Type} (x : S1024x1024.Idx → α) (h : S1024x1024.ShapeCasts S1024x8x128)
    (r : Fin 1024) (s : Fin 8) (l : Fin 128) :
    shapeCast S1024x8x128 x h (ix3 r s l) = x (ix2 r (lane s l)) :=
  shapeCast_apply x h _ _ (by
    rw [Shape.rowMajor_val_two, Shape.rowMajor_val_three]
    show r.val * 1024 + (s.val * 128 + l.val) = (r.val * 8 + s.val) * 128 + l.val
    omega)

/-- The exponent's table at `(r, c)`: twice the inner product less the first block's squared norm of row `r` and
    the second block's of row `c`, clamped at zero from above, exponentiated. -/
theorem expo_apply (v4 v6 : FVec Ideal S1024x2048 .bf16) (v11 : FVec Ideal S1024x1 .f32) (v15 : FVec Ideal S1x1024 .f32)
    (hb1 : S1024x1.Broadcasts S1024x1024) (hb2 : S1x1024.Broadcasts S1024x1024) (r c : Fin 1024) :
    exp (minimumf
        (subf
          (subf
            (mulf (broadcast S1024x1024 (Scalar.ofBits (F := Ideal) .f32 0x40000000#32))
              (matmul dot_S1024x2048_S1024x2048_S1024x1024_1_1_0_0_n_n none v4 v6 (constant (F := Ideal) S1024x1024 .f32 0x00000000#32)))
            (broadcastTo S1024x1024 v11 hb1))
          (broadcastTo S1024x1024 v15 hb2))
        (broadcast S1024x1024 (Scalar.ofBits (F := Ideal) .f32 0x00000000#32))) (ix2 r c)
      = Ideal.exp (min (two * (∑ d : Fin 2048, v4 (ix2 r d) * v6 (ix2 c d)) - v11 (ix2 r 0) - v15 (ix2 0 c)) 0) := by
  refine congrArg Ideal.exp ?_
  refine congrArg₂ min ?_ Ideal.ofBits_zero_f32
  refine congrArg₂ (· - ·) (congrArg₂ (· - ·) (congrArg (two * ·) ?_) ?_) ?_
  · exact gram_apply v4 v6 r c
  · exact Cert.LibKeepdims.broadcastTo_a1_ab_apply v11 hb1 r c
  · exact broadcastTo_1b_ab_apply v15 hb2 r c

/-- The pairwise body's result at row `r`, lane `l`: what the lane held, plus the exponent's table at the eight
    columns `128·s + l` of row `r`. -/
theorem pay_lane_apply (v3 v5 : Vec Ideal S1024x2048 .bf16) (v10 : Vec Ideal S1024x1 .f32) (v14 : Vec Ideal S1x1024 .f32)
    (v23 : Vec Ideal S1024x128 .f32) (r : Fin 1024) (l : Fin 128) :
    k1_pay2 (F := Ideal) v3 v5 v10 v14 v23 (ix2 r l)
      = v23 (ix2 r l) + ∑ s : Fin 8, Ideal.exp (min (two * (∑ d : Fin 2048, v3 (ix2 r d) * v5 (ix2 (lane s l) d))
          - v10 (ix2 r 0) - v14 (ix2 0 (lane s l))) 0) := by
  unfold k1_pay2
  refine congrArg₂ (· + ·) (congrFun (shapeCast_self v23 _) (ix2 r l)) ?_
  refine (midSum_apply _ _ _ _ r l).trans ?_
  refine Finset.sum_congr rfl fun s _ => ?_
  refine (cut_apply _ _ r s l).trans ?_
  refine (expo_apply _ _ _ _ _ _ r (lane s l)).trans ?_
  rw [shapeCast_self, shapeCast_self, shapeCast_self, shapeCast_self]

end Cert.KernelIdeal.PayIdx

end
-- ==== Proof.Region0Value.lean ====
/-
  What the first region leaves in its two output arrays, as functions of the input array.

  The pipeline's point `t` (of 16) reads rows `512·t … 512·t + 511` of the input, and writes the same rows of both
  outputs: the normalised rows, and the column of their squared norms.  A normalised entry depends only on its own
  row of the input, and so does a row's squared norm, so what point `t` writes is the block of rows `512·t …`
  of ONE function of the whole input array (`G1`, `G2`).  The 16 blocks tile the 8192 rows (row `r` lies in the
  block of point `r / 512`), so after the region each output array is that function of the input array.
-/
import proofs.«173406_j10788957848170_2_alg».proof.Proof.Region0
import proofs.«173406_j10788957848170_2_alg».proof.Proof.Spec
import proofs.«173406_j10788957848170_2_alg».proof.Proof.PayIdx
import Idealize.ShloMosaic.Lib.Pipeline.Value
import Idealize.ShloMosaic.Lib.ValueIdx

noncomputable section

namespace Cert.KernelIdeal.R0V

open Cert.KernelIdeal Cert.KernelIdeal.Gen Cert.KernelIdeal.R0
open Idealize.ShloMosaic Idealize.ShloMosaic.TcCoe Idealize.SL.Sem Idealize.ShloMosaic.ValueIdx
open Idealize.ShloMosaic.Pipeline (Dat)

/-! ## The two outputs as functions of the whole input array -/

/-- The array of normalised rows: entry `(i, d)` is `x i d` over the larger of row `i`'s norm and the small constant. -/
def G1 (a : S8192x2048.Idx → EReal) : S8192x2048.Idx → EReal :=
  fun k => Cert.Dispersion.xn (Cert.Dispersion.asMat a) (k 0) (k 1)

/-- The column of the normalised rows' squared norms. -/
def G2 (a : S8192x2048.Idx → EReal) : S8192x1.Idx → EReal :=
  fun k => Cert.Dispersion.sq (Cert.Dispersion.asMat a) (k 0)

theorem G1_apply (a : S8192x2048.Idx → EReal) (i : Fin 8192) (d : Fin 2048) :
    G1 a (ix2 i d) = Cert.Dispersion.xn (Cert.Dispersion.asMat a) i d := rfl

theorem G2_apply (a : S8192x2048.Idx → EReal) (i : Fin 8192) :
    G2 a (ix2 i (0 : Fin 1)) = Cert.Dispersion.sq (Cert.Dispersion.asMat a) i := rfl

theorem hz : (![0, 0] : Fin 2 → Nat) = fun _ => 0 := funext fun a => by fin_cases a <;> rfl

/-! ## The body's arithmetic on a block that is rows `r0 …` of an array -/

section Pay
variable (x0 : Vec Ideal S512x2048 .f32) (a : S8192x2048.Idx → EReal) (r0 : ℕ)
  (h : ∀ (p : Fin 512) (q : Fin 2048) (k : S8192x2048.Idx), (k 0).val = r0 + p.val → (k 1).val = q.val → x0 (ix2 p q) = a k)

include h in
/-- A normalised entry of the block is the normalised entry of the array, `r0` rows further down. -/
theorem pay1_rows (p : Fin 512) (q : Fin 2048) (i : Fin 8192) (hi : i.val = r0 + p.val) :
    k0_pay1 (F := Ideal) x0 (ix2 p q) = Cert.Dispersion.xn (Cert.Dispersion.asMat a) i q := by
  have hx : ∀ q' : Fin 2048, x0 (ix2 p q') = a (ix2 i q') := fun q' => h p q' (ix2 i q') hi rfl
  refine (PayIdx.pay_norm_apply x0 p q).trans ?_
  simp only [hx]
  rfl

include h in
/-- What is stored in the first output's block, at any index, is `G1` of the array `r0` rows further down. -/
theorem pay2_at (j : S512x2048.Idx) (k : S8192x2048.Idx) (hk0 : (k 0).val = r0 + (j 0).val) (hk1 : (k 1).val = (j 1).val) :
    k0_pay2 (F := Ideal) x0 j = G1 a k := by
  obtain ⟨p, q, rfl⟩ : ∃ (p : Fin 512) (q : Fin 2048), j = ix2 p q := ⟨j 0, j 1, eq_ix2 j⟩
  obtain ⟨i, d, rfl⟩ : ∃ (i : Fin 8192) (d : Fin 2048), k = ix2 i d := ⟨k 0, k 1, eq_ix2 k⟩
  have hi : i.val = r0 + p.val := hk0
  obtain rfl : d = q := Fin.ext hk1
  refine (PayIdx.pay_store_apply x0 p d).trans ?_
  exact pay1_rows x0 a r0 h p d i hi

include h in
/-- What is stored in the second output's block is `G2` of the array `r0` rows further down. -/
theorem pay3_at (j : S512x1.Idx) (k : S8192x1.Idx) (hk0 : (k 0).val = r0 + (j 0).val) :
    k0_pay3 (F := Ideal) x0 j = G2 a k := by
  obtain ⟨p, z, rfl⟩ : ∃ (p : Fin 512) (z : Fin 1), j = ix2 p z := ⟨j 0, j 1, eq_ix2 j⟩
  obtain ⟨i, z', rfl⟩ : ∃ (i : Fin 8192) (z' : Fin 1), k = ix2 i z' := ⟨k 0, k 1, eq_ix2 k⟩
  obtain rfl : z = 0 := Subsingleton.elim _ _
  obtain rfl : z' = 0 := Subsingleton.elim _ _
  have hi : i.val = r0 + p.val := hk0
  refine (PayIdx.pay_sq_apply x0 p).trans ?_
  simp only [pay1_rows x0 a r0 h p _ i hi]
  rfl

end Pay

/-! ## The blocks of the windows -/

variable (V : (c : Dev nD) → (b : Ref sig .tc) → Buf (Elt Ideal) ((c : Thread nD τ).loc b))

/-- The three windows' block index at point `t` is `(t, 0)`: decided over the 16 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input window's block at point `t` is rows `512·t … 512·t + 511` of the input array. -/
theorem iblk_apply (c : Dev nD) (t : Fin cfg0.N) (x : S512x2048.Idx) (k : S8192x2048.Idx)
    (hk0 : (k 0).val = 512 * t.val + (x 0).val) (hk1 : (k 1).val = (x 1).val) :
    (iblk0 V c 0 t : Vec Ideal S512x2048 .f32) x = (V c main_arg0 : S8192x2048.Idx → EReal) k := by
  obtain ⟨e0, e1, -⟩ := idx_facts t
  unfold iblk0
  rw [View.read_apply]
  show V c main_arg0 _ = V c main_arg0 k
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 2048 + 1 * (x 1).val = (k 1).val; rw [e1, hk1]; omega

/-! ## What each point writes back -/

/-- Point `t` writes block `t` of `G1` of the input array to the first output. -/
theorem flushed1_eq (c : Dev nD) (t : Fin cfg0.N) :
    (dat0 V c).flushed 1 t = ((cfg0.win 1).blk t).view.read (Elt Ideal) (G1 (V c main_arg0)) := by
  show (cfg0.win 1).cut (grid0.coords t) ((dat0 V c).after 1 t) = _
  rw [after0_1]
  unfold out0_1
  rw [View.canon_unit_zero hz]
  simp only [View.ld_unit_zero (S := S512x2048) hz]
  obtain ⟨-, -, e0, e1, -⟩ := idx_facts t
  funext j
  show k0_pay2 (F := Ideal) (iblk0 V c 0 t) j = G1 (V c main_arg0) (((cfg0.win 1).blk t).view.emb j)
  refine pay2_at (iblk0 V c 0 t) (V c main_arg0) (512 * t.val)
    (fun p q k h0 h1 => iblk_apply V c t (ix2 p q) k h0 h1) j (((cfg0.win 1).blk t).view.emb j) ?_ ?_
  · show win0_1.index t (0 : Fin 2) * 512 + 1 * (j 0).val = 512 * t.val + (j 0).val
    rw [e0]; omega
  · show win0_1.index t (1 : Fin 2) * 2048 + 1 * (j 1).val = (j 1).val
    rw [e1]; omega

/-- Point `t` writes block `t` of `G2` of the input array to the second output. -/
theorem flushed2_eq (c : Dev nD) (t : Fin cfg0.N) :
    (dat0 V c).flushed 2 t = ((cfg0.win 2).blk t).view.read (Elt Ideal) (G2 (V c main_arg0)) := by
  show (cfg0.win 2).cut (grid0.coords t) ((dat0 V c).after 2 t) = _
  rw [after0_2]
  unfold out0_2
  rw [View.canon_unit_zero hz]
  simp only [View.ld_unit_zero (S := S512x2048) hz]
  obtain ⟨-, -, -, -, e0, e1⟩ := idx_facts t
  funext j
  show k0_pay3 (F := Ideal) (iblk0 V c 0 t) j = G2 (V c main_arg0) (((cfg0.win 2).blk t).view.emb j)
  refine pay3_at (iblk0 V c 0 t) (V c main_arg0) (512 * t.val)
    (fun p q k h0 h1 => iblk_apply V c t (ix2 p q) k h0 h1) j (((cfg0.win 2).blk t).view.emb j) ?_
  show win0_2.index t (0 : Fin 2) * 512 + 1 * (j 0).val = 512 * t.val + (j 0).val
  rw [e0]; omega

/-! ## The blocks tile the arrays -/

theorem mem_blk1 (t : Fin cfg0.N) (i : S8192x2048.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v0_0).slice (win0_1.rect t)).set ↔ _
  rw [View.set_slice_whole, Rect.mem_set_unit]
  exact Iff.rfl

theorem mem_blk2 (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_1).slice (win0_2.rect t)).set ↔ _
  rw [View.set_slice_whole, Rect.mem_set_unit]
  exact Iff.rfl

/-- Row `r` of the first output lies in the block of point `r / 512`. -/
theorem cover1 (i : S8192x2048.Idx) : ∃ t : Fin cfg0.N, (cfg0.win 1).flush t = true ∧ i ∈ ((cfg0.win 1).blk t).view.set := by
  have hN : cfg0.N = 16 := N_0
  have hi0 : (i 0).val < 8192 := (i 0).isLt
  have hi1 : (i 1).val < 2048 := (i 1).isLt
  let t : Fin cfg0.N := ⟨(i 0).val / 512, by rw [hN]; omega⟩
  have ht : t.val = (i 0).val / 512 := rfl
  obtain ⟨-, -, e0, e1, -⟩ := idx_facts t
  refine ⟨t, flush0_1 t, ?_⟩
  rw [mem_blk1]
  intro a
  match a with
  | ⟨0, _⟩ => show win0_1.index t (0 : Fin 2) * 512 ≤ (i 0).val ∧ (i 0).val < win0_1.index t (0 : Fin 2) * 512 + 512; rw [e0, ht]; omega
  | ⟨1, _⟩ => show win0_1.index t (1 : Fin 2) * 2048 ≤ (i 1).val ∧ (i 1).val < win0_1.index t (1 : Fin 2) * 2048 + 2048; rw [e1]; omega

/-- Row `r` of the second output lies in the block of point `r / 512`. -/
theorem cover2 (i : S8192x1.Idx) : ∃ t : Fin cfg0.N, (cfg0.win 2).flush t = true ∧ i ∈ ((cfg0.win 2).blk t).view.set := by
  have hN : cfg0.N = 16 := N_0
  have hi0 : (i 0).val < 8192 := (i 0).isLt
  have hi1 : (i 1).val < 1 := (i 1).isLt
  let t : Fin cfg0.N := ⟨(i 0).val / 512, by rw [hN]; omega⟩
  have ht : t.val = (i 0).val / 512 := rfl
  obtain ⟨-, -, -, -, e0, e1⟩ := idx_facts t
  refine ⟨t, flush0_2 t, ?_⟩
  rw [mem_blk2]
  intro a
  match a with
  | ⟨0, _⟩ => show win0_2.index t (0 : Fin 2) * 512 ≤ (i 0).val ∧ (i 0).val < win0_2.index t (0 : Fin 2) * 512 + 512; rw [e0, ht]; omega
  | ⟨1, _⟩ => show win0_2.index t (1 : Fin 2) * 1 ≤ (i 1).val ∧ (i 1).val < win0_2.index t (1 : Fin 2) * 1 + 1; rw [e1]; omega

/-! ## The arrays after the region -/

/-- The first output array after the region is `G1` of the input array. -/
theorem final1 (c : Dev nD) : (dat0 V c).arrAt 1 cfg0.N = G1 (V c main_arg0) :=
  (dat0 V c).arrAt_eq_of_cover 1 _ (fun t _ => flushed1_eq V c t) cover1

/-- The second output array after the region is `G2` of the input array. -/
theorem final2 (c : Dev nD) : (dat0 V c).arrAt 2 cfg0.N = G2 (V c main_arg0) :=
  (dat0 V c).arrAt_eq_of_cover 2 _ (fun t _ => flushed2_eq V c t) cover2

/-- Entry `(i, d)` of the first output: the normalised input entry. -/
theorem arr1 (c : Dev nD) (i : Fin 8192) (d : Fin 2048) :
    ((dat0 V c).arrAt 1 cfg0.N : S8192x2048.Idx → EReal) (ix2 i d)
      = Cert.Dispersion.xn (Cert.Dispersion.asMat (V c main_arg0)) i d :=
  congrFun (final1 V c) (ix2 i d)

/-- Entry `(i, 0)` of the second output: the squared norm of the normalised row `i`. -/
theorem arr2 (c : Dev nD) (i : Fin 8192) :
    ((dat0 V c).arrAt 2 cfg0.N : S8192x1.Idx → EReal) (ix2 i (0 : Fin 1))
      = Cert.Dispersion.sq (Cert.Dispersion.asMat (V c main_arg0)) i :=
  congrFun (final2 V c) (ix2 i (0 : Fin 1))

end Cert.KernelIdeal.R0V

end
-- ==== Proof.PairValue.lean ====
/-
  The pairwise pass as a value: what its output array of 8192 rows and 128 lanes holds after the run.

  At a grid point (i, j) the body leaves in the output's staging buffer the lane-folded terms of that point added
  to what the buffer held — the zero block at j = 0, what the point before left otherwise.  So after the point
  (i, j) the buffer holds the sum over the column blocks 0 … j of their terms, and the block written back after
  j = 7 holds the sum over all eight: lane l of row r of row block i is the sum, over the eight column blocks k and
  the eight sub-blocks s of 128 columns, of exp (min (2·g − a − b) 0) at row 1024·i + r and column
  1024·k + 128·s + l, with g the inner product of the two normalised rows and a, b their squared norms.
-/
import proofs.«173406_j10788957848170_2_alg».proof.Proof.Pair
import proofs.«173406_j10788957848170_2_alg».proof.Proof.PayIdx
import Idealize.ShloMosaic.Lib.Pipeline.Value
import Idealize.ShloMosaic.Lib.Tactic

set_option maxRecDepth 16384

noncomputable section

namespace Cert.KernelIdeal.R1V

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.R1
open Cert.Dispersion Idealize.ShloMosaic.ValueIdx

variable {F : FTy → Type} [FloatOps F]

theorem hz : (![0, 0] : Fin 2 → Nat) = fun _ => 0 := funext fun a => by fin_cases a <;> rfl

/-! ## What the body leaves, in each case -/

/-- At j > 0 the body's one store covers the buffer: it leaves that point's terms added to what the buffer held. -/
theorem outNext_eq (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : ¬isFirst i)
    (x0 : Vec F S1024x2048 .bf16) (x1 : Vec F S1024x2048 .bf16) (x2 : Vec F S1024x1 .f32) (x3 : Vec F S1x1024 .f32) (xo : Vec F S1024x128 .f32) :
    outNext c i a2 h2 a3 h3 a4 h4 a5 h5 a6 h6 hc x0 x1 x2 x3 xo = k1_pay2 x0 x1 x2 x3 xo := by
  unfold outNext
  rw [View.read_writes_eq_canon _ _ _ (coverNext c i a2 h2 a3 h3 a4 h4 a5 h5 a6 h6 hc x0 x1 x2 x3 xo)]
  unfold runNext
  dsimp only
  rw [View.canon_unit_zero hz]
  simp only [View.readAt_eq_ld, h2.read_unread, h3.read_unread, h4.read_unread, h5.read_unread, h6.read_unread,
    View.ld_unit_zero (S := S1024x2048) hz, View.ld_unit_zero (S := S1024x1) hz, View.ld_unit_zero (S := S1x1024) hz,
    View.ld_unit_zero (S := S1024x128) hz]

/-- At j = 0 the body first stores the zero block and reads it back: it leaves that point's terms added to zero. -/
theorem outFirst_eq (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : isFirst i)
    (x0 : Vec F S1024x2048 .bf16) (x1 : Vec F S1024x2048 .bf16) (x2 : Vec F S1024x1 .f32) (x3 : Vec F S1x1024 .f32) :
    outFirst c i a2 h2 a3 h3 a4 h4 a5 h5 a6 h6 hc x0 x1 x2 x3 = k1_pay2 x0 x1 x2 x3 (k1_pay1 (F := F)) := by
  unfold outFirst
  rw [View.read_writes_eq_canon _ _ _ (coverFirst c i a2 h2 a3 h3 a4 h4 a5 h5 a6 h6 hc x0 x1 x2 x3)]
  unfold runFirst
  dsimp only
  sl_unfold_words
  rw [View.canon_cons_unit_zero (S := S1024x128) hz, View.readCov_unit_zero (S := S1024x128) _ hz]
  simp only [View.readAt_eq_ld, h2.read_unread, h3.read_unread, h4.read_unread, h5.read_unread,
    View.ld_unit_zero (S := S1024x2048) hz, View.ld_unit_zero (S := S1024x1) hz, View.ld_unit_zero (S := S1x1024) hz]

/-! ## The arrays the pass reads, and one term of the sum -/

/-- The matrix of normalised rows, the column of their squared norms, and the same norms as a row, as the pass
    finds them. -/
abbrev arr0 (V : (c : Dev nD) → (b : Ref sig .tc) → Buf (Elt Ideal) ((c : Thread nD τ).loc b)) (c : Dev nD) :
    S8192x2048.Idx → EReal := V c main_v0_0
abbrev arr1 (V : (c : Dev nD) → (b : Ref sig .tc) → Buf (Elt Ideal) ((c : Thread nD τ).loc b)) (c : Dev nD) :
    S8192x1.Idx → EReal := V c main_v0_1
abbrev arr2 (V : (c : Dev nD) → (b : Ref sig .tc) → Buf (Elt Ideal) ((c : Thread nD τ).loc b)) (c : Dev nD) :
    S1x8192.Idx → EReal := V c main_v1

/-- The term at row `I` and column `J`: twice the inner product of the two rows less their squared norms,
    clamped at zero from above, exponentiated. -/
def term (A0 : S8192x2048.Idx → EReal) (A1 : S8192x1.Idx → EReal) (A2 : S1x8192.Idx → EReal) (I J : Fin 8192) : EReal :=
  Ideal.exp (min (two * (∑ d : Fin 2048, A0 (ix2 I d) * A0 (ix2 J d)) - A1 (ix2 I 0) - A2 (ix2 0 J)) 0)

variable (V : (c : Dev nD) → (b : Ref sig .tc) → Buf (Elt Ideal) ((c : Thread nD τ).loc b))

/-! ## The blocks, read off the arrays -/

/-- The index maps over the grid: at point `t = 8·i + j` the windows of the first factor, of its norms and of the
    output sit at row block `i`, those of the second factor and of its norms at block `j`. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0 :=
  (by decide +kernel : ∀ t : Fin grid1.N, _)

/-- Row `r` of the first factor's block at point `8·q + j` is row `1024·q + r` of the matrix. -/
theorem read0 (c : Dev nD) (t : Fin cfg1.N) (q j : ℕ) (ht : t.val = 8 * q + j) (hj : j < 8) (r : Fin 1024) (d : Fin 2048) :
    (iblk V c 0 t : Vec Ideal S1024x2048 .bf16) (ix2 r d) = arr0 V c (ix2 (glob q r) d) := by
  have hN : t.val < 64 := lt_of_lt_of_eq t.isLt (show cfg1.N = 64 from N_1)
  obtain ⟨e0, e1, -⟩ := idx_facts t
  unfold iblk
  rw [View.read_apply]
  show V c main_v0_0 _ = V c main_v0_0 _
  congr 1
  funext a
  apply Fin.ext
  match a with
  | ⟨0, _⟩ => show win1_0.index t (0 : Fin 2) * 1024 + 1 * r.val = (q * 1024 + r.val) % 8192; rw [e0]; have := r.isLt; omega
  | ⟨1, _⟩ => show win1_0.index t (1 : Fin 2) * 2048 + 1 * d.val = d.val; rw [e1]; omega

/-- Row `r` of the second factor's block at point `8·q + j` is row `1024·j + r` of the matrix. -/
theorem read1 (c : Dev nD) (t : Fin cfg1.N) (q j : ℕ) (ht : t.val = 8 * q + j) (hj : j < 8) (r : Fin 1024) (d : Fin 2048) :
    (iblk V c 1 t : Vec Ideal S1024x2048 .bf16) (ix2 r d) = arr0 V c (ix2 (glob j r) d) := by
  have hN : t.val < 64 := lt_of_lt_of_eq t.isLt (show cfg1.N = 64 from N_1)
  obtain ⟨-, -, e2, e3, -⟩ := idx_facts t
  unfold iblk
  rw [View.read_apply]
  show V c main_v0_0 _ = V c main_v0_0 _
  congr 1
  funext a
  apply Fin.ext
  match a with
  | ⟨0, _⟩ => show win1_1.index t (0 : Fin 2) * 1024 + 1 * r.val = (j * 1024 + r.val) % 8192; rw [e2]; have := r.isLt; omega
  | ⟨1, _⟩ => show win1_1.index t (1 : Fin 2) * 2048 + 1 * d.val = d.val; rw [e3]; omega

/-- Row `r` of the first norms' block at point `8·q + j` is row `1024·q + r` of the column of norms. -/
theorem read2 (c : Dev nD) (t : Fin cfg1.N) (q j : ℕ) (ht : t.val = 8 * q + j) (hj : j < 8) (r : Fin 1024) :
    (iblk V c 2 t : Vec Ideal S1024x1 .f32) (ix2 r (0 : Fin 1)) = arr1 V c (ix2 (glob q r) (0 : Fin 1)) := by
  have hN : t.val < 64 := lt_of_lt_of_eq t.isLt (show cfg1.N = 64 from N_1)
  obtain ⟨-, -, -, -, e4, e5, -⟩ := idx_facts t
  unfold iblk
  rw [View.read_apply]
  show V c main_v0_1 _ = V c main_v0_1 _
  congr 1
  funext a
  apply Fin.ext
  match a with
  | ⟨0, _⟩ => show win1_2.index t (0 : Fin 2) * 1024 + 1 * r.val = (q * 1024 + r.val) % 8192; rw [e4]; have := r.isLt; omega
  | ⟨1, _⟩ => show win1_2.index t (1 : Fin 2) * 1 + 1 * (0 : Fin 1).val = (0 : Fin 1).val; rw [e5]; rfl

/-- Column `r` of the second norms' block at point `8·q + j` is column `1024·j + r` of the row of norms. -/
theorem read3 (c : Dev nD) (t : Fin cfg1.N) (q j : ℕ) (ht : t.val = 8 * q + j) (hj : j < 8) (r : Fin 1024) :
    (iblk V c 3 t : Vec Ideal S1x1024 .f32) (ix2 (0 : Fin 1) r) = arr2 V c (ix2 (0 : Fin 1) (glob j r)) := by
  have hN : t.val < 64 := lt_of_lt_of_eq t.isLt (show cfg1.N = 64 from N_1)
  obtain ⟨-, -, -, -, -, -, e6, e7, -⟩ := idx_facts t
  unfold iblk
  rw [View.read_apply]
  show V c main_v1 _ = V c main_v1 _
  congr 1
  funext a
  apply Fin.ext
  match a with
  | ⟨0, _⟩ => show win1_3.index t (0 : Fin 2) * 1 + 1 * (0 : Fin 1).val = (0 : Fin 1).val; rw [e6]; rfl
  | ⟨1, _⟩ => show win1_3.index t (1 : Fin 2) * 1024 + 1 * r.val = (j * 1024 + r.val) % 8192; rw [e7]; have := r.isLt; omega

/-! ## One point's terms -/

/-- The terms a point adds at row `r`, lane `l`, once its blocks are read off the arrays: the first factor's at
    row `I`, the second factor's row `r'` at row `Jof r'`. -/
theorem addend_eq (x0 x1 : Vec Ideal S1024x2048 .bf16) (x2 : Vec Ideal S1024x1 .f32) (x3 : Vec Ideal S1x1024 .f32)
    (A0 : S8192x2048.Idx → EReal) (A1 : S8192x1.Idx → EReal) (A2 : S1x8192.Idx → EReal)
    (I : Fin 8192) (Jof : Fin 1024 → Fin 8192) (r : Fin 1024) (l : Fin 128)
    (h0 : ∀ d, x0 (ix2 r d) = A0 (ix2 I d)) (h1 : ∀ r' d, x1 (ix2 r' d) = A0 (ix2 (Jof r') d))
    (h2 : x2 (ix2 r (0 : Fin 1)) = A1 (ix2 I (0 : Fin 1))) (h3 : ∀ r', x3 (ix2 (0 : Fin 1) r') = A2 (ix2 (0 : Fin 1) (Jof r'))) :
    ∑ s : Fin 8, Ideal.exp (min (two * (∑ d : Fin 2048, x0 (ix2 r d) * x1 (ix2 (lane s l) d))
        - x2 (ix2 r 0) - x3 (ix2 0 (lane s l))) 0)
      = ∑ s : Fin 8, term A0 A1 A2 I (Jof (lane s l)) := by
  unfold term
  refine Finset.sum_congr rfl fun s _ => ?_
  have hs : ∑ d : Fin 2048, x0 (ix2 r d) * x1 (ix2 (lane s l) d) = ∑ d : Fin 2048, A0 (ix2 I d) * A0 (ix2 (Jof (lane s l)) d) :=
    Finset.sum_congr rfl fun d _ => by rw [h0, h1]
  rw [hs, h2, h3]

/-- At j > 0, at row `r` and lane `l`: what the buffer held plus the point's terms. -/
theorem next_apply (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : ¬isFirst i)
    (x0 : Vec Ideal S1024x2048 .bf16) (x1 : Vec Ideal S1024x2048 .bf16) (x2 : Vec Ideal S1024x1 .f32) (x3 : Vec Ideal S1x1024 .f32)
    (xo : Vec Ideal S1024x128 .f32) (r : Fin 1024) (l : Fin 128) :
    outNext (F := Ideal) c i a2 h2 a3 h3 a4 h4 a5 h5 a6 h6 hc x0 x1 x2 x3 xo (ix2 r l)
      = xo (ix2 r l) + ∑ s : Fin 8, Ideal.exp (min (two * (∑ d : Fin 2048, x0 (ix2 r d) * x1 (ix2 (lane s l) d))
          - x2 (ix2 r 0) - x3 (ix2 0 (lane s l))) 0) := by
  rw [outNext_eq]
  exact PayIdx.pay_lane_apply x0 x1 x2 x3 xo r l

/-- At j = 0, at row `r` and lane `l`: the point's terms. -/
theorem first_apply (c : Dev nD) (i : grid1.Coords)
    (a2 : Memref sig .tc .vmem S1024x2048 .bf16) (h2 : a2.IsWhole) (a3 : Memref sig .tc .vmem S1024x2048 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x128 .f32) (h6 : a6.IsWhole) (hc : isFirst i)
    (x0 : Vec Ideal S1024x2048 .bf16) (x1 : Vec Ideal S1024x2048 .bf16) (x2 : Vec Ideal S1024x1 .f32) (x3 : Vec Ideal S1x1024 .f32)
    (r : Fin 1024) (l : Fin 128) :
    outFirst (F := Ideal) c i a2 h2 a3 h3 a4 h4 a5 h5 a6 h6 hc x0 x1 x2 x3 (ix2 r l)
      = ∑ s : Fin 8, Ideal.exp (min (two * (∑ d : Fin 2048, x0 (ix2 r d) * x1 (ix2 (lane s l) d))
          - x2 (ix2 r 0) - x3 (ix2 0 (lane s l))) 0) := by
  rw [outFirst_eq]
  refine (PayIdx.pay_lane_apply x0 x1 x2 x3 (k1_pay1 (F := Ideal)) r l).trans ?_
  rw [PayIdx.pay_zero_apply, zero_add]

/-! ## The output block, point by point -/

/-- After the point `(q, 0)` the block holds that point's terms. -/
theorem outsAt_first_apply (c : Dev nD) (t : Fin cfg1.N) (q : ℕ) (ht : t.val = 8 * q + 0) (r : Fin 1024) (l : Fin 128) :
    (outsAt V c t.val t.isLt : Vec Ideal S1024x128 .f32) (ix2 r l)
      = ∑ s : Fin 8, term (arr0 V c) (arr1 V c) (arr2 V c) (glob q r) (glob 0 (lane s l)) := by
  have h0 : t.val % 8 = 0 := by omega
  rw [outsAt_first V c t h0]
  refine (first_apply c (grid1.coords t) (ms0 t) (hs0 t) (ms1 t) (hs1 t) (ms2 t) (hs2 t) (ms3 t) (hs3 t) (ms4 t) (hs4 t)
    ((isFirst_iff t).mpr h0) (iblk V c 0 t) (iblk V c 1 t) (iblk V c 2 t) (iblk V c 3 t) r l).trans ?_
  exact addend_eq (iblk V c 0 t) (iblk V c 1 t) (iblk V c 2 t) (iblk V c 3 t) (arr0 V c) (arr1 V c) (arr2 V c)
    (glob q r) (fun r' => glob 0 r') r l
    (fun d => read0 V c t q 0 ht (by omega) r d) (fun r' d => read1 V c t q 0 ht (by omega) r' d)
    (read2 V c t q 0 ht (by omega) r) (fun r' => read3 V c t q 0 ht (by omega) r')

/-- After a point `(q, j + 1)` the block holds what the point before left plus that point's terms. -/
theorem outsAt_next_apply (c : Dev nD) (t : Fin cfg1.N) (q j : ℕ) (ht : t.val = 8 * q + (j + 1)) (hj : j + 1 < 8)
    (r : Fin 1024) (l : Fin 128) :
    (outsAt V c t.val t.isLt : Vec Ideal S1024x128 .f32) (ix2 r l)
      = (outsAt V c (t.val - 1) (Nat.lt_of_le_of_lt (Nat.sub_le _ _) t.isLt) : Vec Ideal S1024x128 .f32) (ix2 r l)
        + ∑ s : Fin 8, term (arr0 V c) (arr1 V c) (arr2 V c) (glob q r) (glob (j + 1) (lane s l)) := by
  have h0 : ¬t.val % 8 = 0 := by omega
  rw [outsAt_next V c t h0]
  refine (next_apply c (grid1.coords t) (ms0 t) (hs0 t) (ms1 t) (hs1 t) (ms2 t) (hs2 t) (ms3 t) (hs3 t) (ms4 t) (hs4 t)
    (fun h => h0 ((isFirst_iff t).mp h)) (iblk V c 0 t) (iblk V c 1 t) (iblk V c 2 t) (iblk V c 3 t)
    (outsAt V c (t.val - 1) (Nat.lt_of_le_of_lt (Nat.sub_le _ _) t.isLt)) r l).trans ?_
  refine congrArg (_ + ·) ?_
  exact addend_eq (iblk V c 0 t) (iblk V c 1 t) (iblk V c 2 t) (iblk V c 3 t) (arr0 V c) (arr1 V c) (arr2 V c)
    (glob q r) (fun r' => glob (j + 1) r') r l
    (fun d => read0 V c t q (j + 1) ht hj r d) (fun r' d => read1 V c t q (j + 1) ht hj r' d)
    (read2 V c t q (j + 1) ht hj r) (fun r' => read3 V c t q (j + 1) ht hj r')

/-- After the point `(q, j)` the block holds the terms of the column blocks `0 … j`. -/
theorem outsAt_apply (c : Dev nD) (q : ℕ) (r : Fin 1024) (l : Fin 128) :
    ∀ (j : ℕ) (hj : j < 8) (n : ℕ) (hn : n < cfg1.N), n = 8 * q + j →
      (outsAt V c n hn : Vec Ideal S1024x128 .f32) (ix2 r l)
        = ∑ k ∈ Finset.range (j + 1), ∑ s : Fin 8, term (arr0 V c) (arr1 V c) (arr2 V c) (glob q r) (glob k (lane s l))
  | 0, hj, n, hn, e => by
    subst e
    exact (outsAt_first_apply V c ⟨8 * q + 0, hn⟩ q rfl r l).trans
      (Finset.sum_range_one (fun k => ∑ s : Fin 8, term (arr0 V c) (arr1 V c) (arr2 V c) (glob q r) (glob k (lane s l)))).symm
  | j + 1, hj, n, hn, e => by
    subst e
    rw [Finset.sum_range_succ]
    refine (outsAt_next_apply V c ⟨8 * q + (j + 1), hn⟩ q j rfl hj r l).trans ?_
    refine congrArg (· + _) ?_
    exact outsAt_apply c q r l j (by omega) _ _ (by show 8 * q + (j + 1) - 1 = 8 * q + j; omega)

/-! ## The output array -/

/-- What the output array ends holding: at row `I`, lane `l`, the terms of the eight column blocks' eight
    sub-blocks at that lane. -/
def G (c : Dev nD) : S8192x128.Idx → EReal :=
  fun y => ∑ k ∈ Finset.range 8, ∑ s : Fin 8, term (arr0 V c) (arr1 V c) (arr2 V c) (y 0) (glob k (lane s (y 1)))

/-- What a point `(q, 7)` writes back is its block of that array. -/
theorem flushed_eq (c : Dev nD) (t : Fin cfg1.N) (hf : (cfg1.win 4).flush t = true) :
    (dat V c).flushed 4 t = ((cfg1.win 4).blk t).view.read (Elt Ideal) (G V c) := by
  have hN : t.val < 64 := lt_of_lt_of_eq t.isLt (show cfg1.N = 64 from N_1)
  have h7 : t.val % 8 = 7 := (flush1_4 t).mp hf
  obtain ⟨-, -, -, -, -, -, -, -, e8, e9⟩ := idx_facts t
  show (cfg1.win 4).cut (grid1.coords t) ((dat V c).after 4 t) = _
  rw [after_4]
  funext y
  rw [View.read_apply]
  have ey : (y : S1024x128.Idx) = ix2 (y 0) (y 1) := eq_ix2 y
  have e0 : (((cfg1.win 4).blk t).view.emb y : S8192x128.Idx) 0 = glob (t.val / 8) (y 0) :=
    Fin.ext (by
      show win1_4.index t (0 : Fin 2) * 1024 + 1 * (y 0).val = (t.val / 8 * 1024 + (y 0).val) % 8192
      rw [e8]; have hy0 : (y 0).val < 1024 := (y 0).isLt; omega)
  have e1 : (((cfg1.win 4).blk t).view.emb y : S8192x128.Idx) 1 = y 1 :=
    Fin.ext (by
      show win1_4.index t (1 : Fin 2) * 128 + 1 * (y 1).val = (y 1).val
      rw [e9]; omega)
  show (outsAt V c t.val t.isLt : Vec Ideal S1024x128 .f32) y
    = ∑ k ∈ Finset.range 8, ∑ s : Fin 8, term (arr0 V c) (arr1 V c) (arr2 V c)
        ((((cfg1.win 4).blk t).view.emb y : S8192x128.Idx) 0) (glob k (lane s ((((cfg1.win 4).blk t).view.emb y : S8192x128.Idx) 1)))
  rw [e0, e1]
  exact (congrArg (outsAt V c t.val t.isLt : Vec Ideal S1024x128 .f32) ey).trans
    (outsAt_apply V c (t.val / 8) (y 0) (y 1) 7 (by omega) t.val t.isLt (by omega))

/-- An index of the array is in point `t`'s block iff each coordinate is in the block's range on its axis. -/
theorem mem_blk (t : Fin cfg1.N) (y : S8192x128.Idx) :
    y ∈ ((cfg1.win 4).blk t).view.set ↔ ∀ a : Fin 2, win1_4.index t a * S1024x128.size a ≤ (y a).val
      ∧ (y a).val < win1_4.index t a * S1024x128.size a + S1024x128.size a := by
  show y ∈ ((View.whole main_v2).slice (win1_4.rect t)).set ↔ _
  rw [View.set_slice_whole, Rect.mem_set_unit]
  exact Iff.rfl

/-- Row `I` of the array lies in the block the point `(I / 1024, 7)` writes back. -/
theorem cover (y : S8192x128.Idx) : ∃ t : Fin cfg1.N, (cfg1.win 4).flush t = true ∧ y ∈ ((cfg1.win 4).blk t).view.set := by
  have hy0 : (y 0).val < 8192 := (y 0).isLt
  have hy1 : (y 1).val < 128 := (y 1).isLt
  have hN : cfg1.N = 64 := N_1
  refine ⟨⟨8 * ((y 0).val / 1024) + 7, by rw [hN]; omega⟩, (flush1_4 _).mpr (by show (8 * ((y 0).val / 1024) + 7) % 8 = 7; omega), ?_⟩
  rw [mem_blk]
  obtain ⟨-, -, -, -, -, -, -, -, e8, e9⟩ := idx_facts ⟨8 * ((y 0).val / 1024) + 7, by rw [hN]; omega⟩
  intro a
  match a with
  | ⟨0, _⟩ =>
    show win1_4.index _ (0 : Fin 2) * 1024 ≤ (y 0).val ∧ (y 0).val < win1_4.index _ (0 : Fin 2) * 1024 + 1024
    rw [e8]; show (8 * ((y 0).val / 1024) + 7) / 8 * 1024 ≤ (y 0).val ∧ (y 0).val < (8 * ((y 0).val / 1024) + 7) / 8 * 1024 + 1024
    omega
  | ⟨1, _⟩ =>
    show win1_4.index _ (1 : Fin 2) * 128 ≤ (y 1).val ∧ (y 1).val < win1_4.index _ (1 : Fin 2) * 128 + 128
    rw [e9]; omega

/-- The output array after the pass. -/
theorem arr4_eq (c : Dev nD) : (dat V c).arrAt 4 cfg1.N = G V c :=
  (dat V c).arrAt_eq_of_cover 4 (G V c) (flushed_eq V c) (cover)

/-- The output array of the pass, as a function of row and lane. -/
abbrev out4 (c : Dev nD) : S8192x128.Idx → EReal := (dat V c).arrAt 4 cfg1.N

/-- Lane `l` of row `i` of the output array: the sum over the eight column blocks `k` and the eight sub-blocks
    `s` of the term at row `i` and column `1024·k + 128·s + l`. -/
theorem arr4 (c : Dev nD) (i : Fin 8192) (l : Fin 128) :
    out4 V c (ix2 i l)
      = ∑ k ∈ Finset.range 8, ∑ s : Fin 8, Ideal.exp (min (two * (∑ d : Fin 2048,
          arr0 V c (ix2 i d) * arr0 V c (ix2 (glob k (lane s l)) d))
          - arr1 V c (ix2 i 0) - arr2 V c (ix2 0 (glob k (lane s l)))) 0) := by
  show ((dat V c).arrAt 4 cfg1.N : S8192x128.Idx → EReal) (ix2 i l) = _
  rw [arr4_eq]
  rfl

end Cert.KernelIdeal.R1V

end
-- ==== Proof.KernelValue.lean ====
/-
  The kernel side's result as a value: the scalar the program leaves is the specification's `resultK` of the
  input matrix.

  The first call leaves the normalised rows `xn x` and the column of their squared norms `sq x`; the reshape
  turns that column into a row; the second call is entered from these three arrays, and leaves in lane `l` of
  row `i` the sum, over the eight column blocks `k` and the eight sub-blocks `s`, of
  `exp (min (2·gram x i j − sq x i − sq x j) 0)` at column `j = 1024·k + 128·s + l`: that is `accTo x i l 8`.  The
  closing operations add a row's lanes (`rowK x i`), divide by 8191, add the rows and divide by 8192: `resultK x`.
-/
import proofs.«173406_j10788957848170_2_alg».proof.Proof.MainRun
import proofs.«173406_j10788957848170_2_alg».proof.Proof.HostStretches
import proofs.«173406_j10788957848170_2_alg».proof.Proof.Region0Value
import proofs.«173406_j10788957848170_2_alg».proof.Proof.PairValue
import proofs.«173406_j10788957848170_2_alg».proof.Proof.Spec

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.RunK

variable (m : (ℓ : Loc nD τ sig) → Buf (Elt Ideal) ℓ)

/-- The input matrix on core `c`. -/
abbrev X (c : Dev nD) : Cert.Dispersion.Mat := Cert.Dispersion.asMat (m ((c.tc : Thread nD τ).loc main_arg0))

/-- A rank-two array of extended reals read at a row and a column. -/
def rd {a b : ℕ} (A : (⟨2, ![a, b]⟩ : Shape).Idx → EReal) (i : Fin a) (j : Fin b) : EReal := A (ix2 i j)

/-! ## What the second call is entered from -/

/-- The matrix the second call reads is what the first call's write-backs left: the reshape in between does not
    write it. -/
theorem E1_v0_0 (c : Dev nD) : E1 m c main_v0_0 = (R0.dat0 (E0 m) c).arrAt 1 cfg0.N :=
  (V2_of m (outs1 m) c main_v0_0 (by decide)).trans (hF0 m c 1).symm

/-- Likewise the column of squared norms. -/
theorem E1_v0_1 (c : Dev nD) : E1 m c main_v0_1 = (R0.dat0 (E0 m) c).arrAt 2 cfg0.N :=
  (V2_of m (outs1 m) c main_v0_1 (by decide)).trans (hF0 m c 2).symm

/-- Entry `(i, d)` of the matrix the second call reads: the normalised input entry. -/
theorem v0_0_apply (c : Dev nD) (i : Fin 8192) (d : Fin 2048) :
    rd (a := 8192) (b := 2048) (E1 m c main_v0_0) i d = Cert.Dispersion.xn (X m c) i d :=
  (congrFun (E1_v0_0 m c) (ix2 i d)).trans (R0V.arr1 (E0 m) c i d)

/-- Entry `(i, 0)` of the column the second call reads: the squared norm of the normalised row `i`. -/
theorem v0_1_apply (c : Dev nD) (i : Fin 8192) :
    rd (a := 8192) (b := 1) (E1 m c main_v0_1) i 0 = Cert.Dispersion.sq (X m c) i :=
  (congrFun (E1_v0_1 m c) (ix2 i (0 : Fin 1))).trans (R0V.arr2 (E0 m) c i)

/-- Entry `(0, j)` of the row the second call reads: the reshape of the column, so the squared norm of row `j`. -/
theorem v1_apply (c : Dev nD) (j : Fin 8192) :
    rd (a := 1) (b := 8192) (E1 m c main_v1) 0 j = Cert.Dispersion.sq (X m c) j := by
  refine (hostOps1_v1 (V1 m (outs1 m) c) j).trans ?_
  refine (congrFun (hF0 m c 2).symm (ix2 j (0 : Fin 1))).trans ?_
  exact R0V.arr2 (E0 m) c j

/-! ## The lanes the second call leaves, and the result -/

/-- What the second call leaves in lane `l` of row `i`, for any contents `V` it is entered from: the terms of the eight
    column blocks and their eight sub-blocks at that lane, over the three arrays it reads. -/
def LaneSums : Prop :=
  ∀ (V : (c : Dev nD) → (b : Ref sig .tc) → Buf (Elt Ideal) ((c : Thread nD τ).loc b)) (c : Dev nD) (i : Fin 8192) (l : Fin 128),
    rd (a := 8192) (b := 128) ((R1.dat V c).arrAt 4 cfg1.N) i l
      = ∑ k ∈ Finset.range 8, ∑ s : Fin 8, Ideal.exp (min (Cert.Dispersion.two
          * (∑ d : Fin 2048, rd (a := 8192) (b := 2048) (V c main_v0_0) i d
              * rd (a := 8192) (b := 2048) (V c main_v0_0) (Cert.Dispersion.glob k (Cert.Dispersion.lane s l)) d)
          - rd (a := 8192) (b := 1) (V c main_v0_1) i 0
          - rd (a := 1) (b := 8192) (V c main_v1) 0 (Cert.Dispersion.glob k (Cert.Dispersion.lane s l))) 0)

/-- Lane `l` of row `i` after the second call is the specification's lane sum over all eight column blocks. -/
theorem lane_apply (harr4 : LaneSums) (c : Dev nD) (i : Fin 8192) (l : Fin 128) :
    rd (a := 8192) (b := 128) ((R1.dat (E1 m) c).arrAt 4 cfg1.N) i l = Cert.Dispersion.accTo (X m c) i l 8 := by
  refine (harr4 (E1 m) c i l).trans ?_
  refine Finset.sum_congr rfl fun k _ => Finset.sum_congr rfl fun s _ => ?_
  rw [v0_1_apply m c i, v1_apply m c (Cert.Dispersion.glob k (Cert.Dispersion.lane s l))]
  refine congrArg (fun g => Ideal.exp (min (Cert.Dispersion.two * g - Cert.Dispersion.sq (X m c) i
    - Cert.Dispersion.sq (X m c) (Cert.Dispersion.glob k (Cert.Dispersion.lane s l))) 0)) ?_
  exact Finset.sum_congr rfl fun d _ => by
    rw [v0_0_apply m c i d, v0_0_apply m c (Cert.Dispersion.glob k (Cert.Dispersion.lane s l)) d]

/-- The scalar the program leaves is `resultK` of the input matrix. -/
theorem result_of (harr4 : LaneSums) (c : Dev nD) :
    V4 m (outs m) c main_v7 = fun _ => Cert.Dispersion.resultK (X m c) := by
  refine (hostOps2_v7 (V3 m (outs m) c)).trans ?_
  funext _
  refine congrArg Cert.Dispersion.tail (funext fun i => ?_)
  refine Finset.sum_congr rfl fun l _ => ?_
  exact (congrFun (hF1 m c 4).symm (ix2 i l)).trans (lane_apply m harr4 c i l)

/-- The same with the second call's lane sums in hand. -/
theorem result (c : Dev nD) :
    V4 m (outs m) c main_v7 = fun _ => Cert.Dispersion.resultK (Cert.Dispersion.asMat (m ((c.tc : Thread nD τ).loc main_arg0))) :=
  result_of m (fun V c i l => R1V.arr4 V c i l) c

end Cert.KernelIdeal.KV

end
-- ==== Proof.RefValue.lean ====
/-
  The reference program's result, read one stage at a time, is the specification's `resultR`.

  Each stage of the reference is a function of the one argument array `a`.  Read at an index built from literal
  coordinates, each stage is the matching quantity of the specification at the matrix `asMat a`: the sum of a row's
  squares, the divisor of a row, the normalised entry, the squared norm and inner product of normalised rows, the
  exponential term, the row sum, its quotient by 8191, and last the sum of the quotients divided by 8192.
-/
import proofs.«173406_j10788957848170_2_alg».proof.Proof.Gen.ReferenceIdeal.Read
import proofs.«173406_j10788957848170_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Dispersion
open Idealize.ShloMosaic Idealize.ShloMosaic.TcCoe Idealize.SL.Sem Idealize.ShloMosaic.StableHlo Idealize.ShloMosaic.ValueIdx

/-- The argument array: 8192 rows of 2048 extended reals. -/
abbrev Arr : Type := (⟨S8192x2048, .f32⟩ : BufTy).Contents (Elt Ideal)

/-! ## Sums over a rank-one index set are sums over its coordinate -/

/-- A rank-one index is its coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ i : Fin n, f (ix1 i) := by
  rw [← Equiv.sum_comp (idxEquiv1 (n := n)).symm f]
  rfl

/-! ## The index maps of the layout operations, at coordinates -/

theorem idx_c0v1 (i : Fin 8192) (k : Fin 2048) : idx_main_call0_v1 (ix1 i) k = ix2 i k :=
  funext fun a => Fin.ext (by match a with | ⟨0, _⟩ => rfl | ⟨1, _⟩ => rfl)
theorem idx_c0v2 (i : Fin 8192) (z : Fin 1) : idx_main_call0_v2 (ix2 i z) = ix1 i :=
  funext fun a => Fin.ext (by match a with | ⟨0, _⟩ => rfl)
theorem idx_v3 (i : Fin 8192) (d : Fin 2048) : idx_main_v3 (ix2 i d) = ix2 i (0 : Fin 1) :=
  funext fun a => Fin.ext (by match a with | ⟨0, _⟩ => rfl | ⟨1, _⟩ => rfl)
theorem idx_v6 (i : Fin 8192) (k : Fin 2048) : idx_main_v6 (ix1 i) k = ix2 i k :=
  funext fun a => Fin.ext (by match a with | ⟨0, _⟩ => rfl | ⟨1, _⟩ => rfl)
theorem lidx_v7 (i j : Fin 8192) (k : Fin 2048) : lidx_main_v7 (ix2 i j) k = ix2 i k :=
  funext fun a => Fin.ext (by match a with | ⟨0, _⟩ => rfl | ⟨1, _⟩ => rfl)
theorem ridx_v7 (i j : Fin 8192) (k : Fin 2048) : ridx_main_v7 (ix2 i j) k = ix2 j k :=
  funext fun a => Fin.ext (by match a with | ⟨0, _⟩ => rfl | ⟨1, _⟩ => rfl)
theorem idx_v8_v10 (i j : Fin 8192) : idx_main_v8 (idx_main_v10 (ix2 i j)) = ix1 i :=
  funext fun a => Fin.ext (by match a with | ⟨0, _⟩ => rfl)
theorem idx_v9_v11 (i j : Fin 8192) : idx_main_v9 (idx_main_v11 (ix2 i j)) = ix1 j :=
  funext fun a => Fin.ext (by match a with | ⟨0, _⟩ => rfl)
theorem idx_v20 (i k : Fin 8192) : idx_main_v20 (ix1 i) k = ix2 i k :=
  funext fun a => Fin.ext (by match a with | ⟨0, _⟩ => rfl | ⟨1, _⟩ => rfl)

/-! ## The stages -/

/-- The first row sum is the sum of the row's squares. -/
theorem ss_eq (a : Arr) (i : Fin 8192) : val_main_call0_v1 (F := Ideal) a (ix1 i) = ss (asMat a) i := by
  rw [val_main_call0_v1_apply, val_main_call0_cst_apply, Ideal.ofBits_def, Ideal.ofBits_zero_f32, zero_add]
  unfold ss asMat
  refine Finset.sum_congr rfl fun k _ => ?_
  rw [idx_c0v1, val_main_call0_v0_apply, Ideal.mulf_def]

/-- The divisor of a row. -/
theorem den_eq (a : Arr) (i : Fin 8192) (z : Fin 1) : val_main_v2 (F := Ideal) a (ix2 i z) = den (asMat a) i := by
  rw [val_main_v2_apply, val_main_v0_apply, val_main_call0_v2_apply, idx_c0v2, ss_eq, val_main_v1_apply,
    val_main_cst_apply, Ideal.ofBits_def, Ideal.hostUnary_sqrt_def, Ideal.maximumf_def]
  rfl

/-- The normalised entry. -/
theorem xn_eq (a : Arr) (i : Fin 8192) (d : Fin 2048) : val_main_v4 (F := Ideal) a (ix2 i d) = xn (asMat a) i d := by
  rw [val_main_v4_apply, val_main_v3_apply, idx_v3, den_eq, Ideal.hostDivf_def]
  rfl

/-- The squared norm of a normalised row. -/
theorem sq_eq (a : Arr) (i : Fin 8192) : val_main_v6 (F := Ideal) a (ix1 i) = Cert.Dispersion.sq (asMat a) i := by
  rw [val_main_v6_apply, val_main_cst_0_apply, Ideal.ofBits_def, Ideal.ofBits_zero_f32, zero_add]
  unfold Cert.Dispersion.sq
  refine Finset.sum_congr rfl fun k _ => ?_
  rw [idx_v6, val_main_v5_apply, Ideal.mulf_def, xn_eq]

/-- The inner product of two normalised rows. -/
theorem gram_eq (a : Arr) (i j : Fin 8192) : val_main_v7 (F := Ideal) a (ix2 i j) = gram (asMat a) i j := by
  rw [val_main_v7_apply]
  unfold gram
  refine Finset.sum_congr rfl fun k _ => ?_
  rw [lidx_v7, ridx_v7, xn_eq, xn_eq]

/-- The exponential term at `(i, j)`. -/
theorem er_eq (a : Arr) (i j : Fin 8192) : val_main_v19 (F := Ideal) a (ix2 i j) = er (asMat a) i j := by
  rw [val_main_v19_apply, val_main_v18_apply, val_main_v17_apply, val_main_v15_apply, val_main_v12_apply,
    val_main_v10_apply, val_main_v8_apply, idx_v8_v10, val_main_v11_apply, val_main_v9_apply, idx_v9_v11,
    sq_eq, sq_eq, val_main_v14_apply, gram_eq, val_main_v13_apply, val_main_cst_1_apply,
    val_main_v16_apply, val_main_cst_2_apply,
    Ideal.ofBits_def, Ideal.ofBits_def, Ideal.ofBits_zero_f32,
    Ideal.hostUnary_exp_def, Ideal.hostNegf_def, Ideal.negf_def, Ideal.maximumf_def, Ideal.subf_def,
    Ideal.addf_def, Ideal.mulf_def]
  rfl

/-- The row sum. -/
theorem row_eq (a : Arr) (i : Fin 8192) : val_main_v20 (F := Ideal) a (ix1 i) = rowR (asMat a) i := by
  rw [val_main_v20_apply, val_main_cst_3_apply, Ideal.ofBits_def, Ideal.ofBits_zero_f32, zero_add]
  unfold rowR
  refine Finset.sum_congr rfl fun k _ => ?_
  rw [idx_v20, er_eq]

/-- The row sum divided by 8191. -/
theorem quot_eq (a : Arr) (i : Fin 8192) :
    val_main_v22 (F := Ideal) a (ix1 i) = Ideal.div (rowR (asMat a) i) c8191 := by
  rw [val_main_v22_apply, row_eq, val_main_v21_apply, val_main_cst_4_apply, Ideal.ofBits_def, Ideal.hostDivf_def]
  rfl

/-- The reference's last stage is the specification's result, at every index of the scalar shape. -/
theorem result_eq (a : Arr) :
    val_main_v24 (F := Ideal) a = fun _ => resultR (asMat a) := by
  funext j
  rw [val_main_v24_apply, val_main_v23_apply, val_main_cst_5_apply, val_main_cst_6_apply, Ideal.ofBits_def,
    Ideal.ofBits_def, Ideal.ofBits_zero_f32, zero_add, Ideal.hostDivf_def, sum_idx1]
  unfold resultR tail
  refine congrArg (fun t => Ideal.div t c8192) (Finset.sum_congr rfl fun i _ => ?_)
  exact quot_eq a i

/-! ## The run -/

/-- Every weakly fair execution of the reference ends with its result holding the specification's `resultR` of the
    argument matrix, the argument unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
          = (fun _ => resultR (asMat (m ((c.tc : Thread nD τ).loc main_arg0))))
      ∧ r.2.mem ((c.tc : Thread nD τ).loc main_arg0) = m ((c.tc : Thread nD τ).loc main_arg0) :=
  (θ_run defs _ _).mono
    (fun _ h c => ⟨(h c).1.trans ((val_main_v24_eq _).trans (result_eq _)), (h c).2⟩)
    (Cert.ReferenceIdeal.Value.run (F := Ideal) m ρ)

end Cert.ReferenceIdeal.RefValue

end
-- ==== Proof.Math.lean ====
/-
  The two sides of the specification agree on every matrix of real numbers.

  Three facts carry the proof.  First, a matrix with real entries stays real through the normalisation: a row's
  sum of squares is a nonnegative real, its square root is a real, the larger of that root and the small positive
  constant is a positive real, and dividing a real by a positive real gives a real; hence every squared norm and
  every inner product of normalised rows is a real.  Second, for reals `a b g` one has
  `min (2·g − a − b) 0 = −max (a + b − 2·g) 0`, so the two sides' terms coincide.  Third, summing a row in
  eight blocks of 1024 columns, each folded into 128 lanes by its eight sub-blocks, visits every column exactly
  once: `(k, s, l) ↦ 1024·k + 128·s + l` is a bijection onto the 8192 columns; this regrouping needs only a
  commutative, associative addition.
-/
import proofs.«173406_j10788957848170_2_alg».proof.Proof.Spec
import Mathlib.Algebra.BigOperators.Fin
import Mathlib.Data.Fintype.BigOperators
import Mathlib.Logic.Equiv.Fin.Basic

noncomputable section

namespace Cert.Dispersion

open Idealize.ShloMosaic

/-! ### The constants -/

/-- The factor two is the real number 2. -/
theorem two_eq : two = ((2 : ℝ) : EReal) := by
  simp [two, Ideal.ofBits, Ideal.ieee, -EReal.coe_mul]; norm_num

/-- The small constant is a positive real. -/
theorem eps_pos : ∃ e : ℝ, 0 < e ∧ eps = (e : EReal) := by
  simp [eps, Ideal.ofBits, Ideal.ieee, -EReal.coe_mul]

/-! ### Reals inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `max` and `min`. -/
theorem coe_max' (p q : ℝ) : max (p : EReal) (q : EReal) = ((max p q : ℝ) : EReal) :=
  (EReal.coe_strictMono.monotone.map_max).symm

theorem coe_min' (p q : ℝ) : min (p : EReal) (q : EReal) = ((min p q : ℝ) : EReal) :=
  (EReal.coe_strictMono.monotone.map_min).symm

/-- An inner product of two real vectors is real. -/
theorem dot_coe (u v : Fin 2048 → EReal) (U V : Fin 2048 → ℝ) (hu : ∀ d, u d = (U d : EReal))
    (hv : ∀ d, v d = (V d : EReal)) : ∑ d : Fin 2048, u d * v d = ((∑ d : Fin 2048, U d * V d : ℝ) : EReal) := by
  rw [coe_sum]
  exact Finset.sum_congr rfl (fun d _ => by rw [hu, hv, EReal.coe_mul])

/-! ### The normalised matrix is real -/

/-- Every entry of the normalised matrix is a real number. -/
theorem xn_real (x : Mat) (hx : Finite x) : ∃ Y : Fin 8192 → Fin 2048 → ℝ, ∀ i d, xn x i d = (Y i d : EReal) := by
  choose X hX using hx
  obtain ⟨e, he, heps⟩ := eps_pos
  have hss : ∀ i, ss x i = ((∑ d : Fin 2048, X i d * X i d : ℝ) : EReal) :=
    fun i => dot_coe _ _ _ _ (hX i) (hX i)
  have hnn : ∀ i, (0 : ℝ) ≤ ∑ d : Fin 2048, X i d * X i d :=
    fun i => Finset.sum_nonneg (fun d _ => mul_self_nonneg _)
  have hden : ∀ i, den x i = ((max (Real.sqrt (∑ d : Fin 2048, X i d * X i d)) e : ℝ) : EReal) := by
    intro i
    unfold den
    rw [hss i, Ideal.sqrt_coe, if_neg (not_lt.mpr (hnn i)), heps, coe_max']
  have hpos : ∀ i, (0 : ℝ) < max (Real.sqrt (∑ d : Fin 2048, X i d * X i d)) e :=
    fun i => lt_max_of_lt_right he
  refine ⟨fun i d => X i d * (1 / max (Real.sqrt (∑ d : Fin 2048, X i d * X i d)) e), fun i d => ?_⟩
  unfold xn
  rw [hden i, Ideal.div_coe (hpos i).ne', hX i d, ← EReal.coe_mul]

/-- Every squared norm and every inner product of normalised rows is a real number. -/
theorem sq_gram_real (x : Mat) (hx : Finite x) :
    ∃ (a : Fin 8192 → ℝ) (g : Fin 8192 → Fin 8192 → ℝ),
      (∀ i, sq x i = (a i : EReal)) ∧ (∀ i j, gram x i j = (g i j : EReal)) := by
  obtain ⟨Y, hY⟩ := xn_real x hx
  exact ⟨fun i => ∑ d : Fin 2048, Y i d * Y i d, fun i j => ∑ d : Fin 2048, Y i d * Y j d,
    fun i => dot_coe _ _ _ _ (hY i) (hY i), fun i j => dot_coe _ _ _ _ (hY i) (hY j)⟩

/-! ### The two clamps -/

/-- Clamping `2·g − a − b` from above at 0 is the negative of clamping `a + b − 2·g` from below at 0. -/
theorem clamp_eq (a b g : ℝ) :
    min (((2 : ℝ) : EReal) * (g : EReal) - (a : EReal) - (b : EReal)) 0
      = -(max ((a : EReal) + (b : EReal) - ((2 : ℝ) : EReal) * (g : EReal)) 0) := by
  have h1 : ((2 : ℝ) : EReal) * (g : EReal) - (a : EReal) - (b : EReal) = ((2 * g - a - b : ℝ) : EReal) := by
    simp only [EReal.coe_sub, EReal.coe_mul]
  have h2 : (a : EReal) + (b : EReal) - ((2 : ℝ) : EReal) * (g : EReal) = ((a + b - 2 * g : ℝ) : EReal) := by
    simp only [EReal.coe_sub, EReal.coe_add, EReal.coe_mul]
  rw [h1, h2, ← EReal.coe_zero, coe_min', coe_max', ← EReal.coe_neg]
  congr 1
  rw [← min_neg_neg, neg_zero]
  congr 1
  ring

/-- The two sides' terms agree. -/
theorem ek_eq_er (x : Mat) (hx : Finite x) (i j : Fin 8192) : ek x i j = er x i j := by
  obtain ⟨a, g, ha, hg⟩ := sq_gram_real x hx
  unfold ek er
  rw [ha i, ha j, hg i j, two_eq, clamp_eq]

/-! ### Summing a row in blocks and lanes -/

/-- Eight blocks of 1024 columns, each read as eight sub-blocks of 128 lanes, cover the 8192 columns exactly once. -/
theorem regroup {M : Type*} [AddCommMonoid M] (f : Fin 8192 → M) :
    ∑ l : Fin 128, ∑ k ∈ Finset.range 8, ∑ s : Fin 8, f (glob k (lane s l)) = ∑ j : Fin 8192, f j := by
  rw [Finset.sum_comm]
  rw [Finset.sum_range (fun k => ∑ l : Fin 128, ∑ s : Fin 8, f (glob k (lane s l)))]
  have hswap : ∀ k : Fin 8, ∑ l : Fin 128, ∑ s : Fin 8, f (glob k.val (lane s l))
      = ∑ s : Fin 8, ∑ l : Fin 128, f (glob k.val (lane s l)) := fun k => Finset.sum_comm
  rw [Finset.sum_congr rfl (fun k _ => hswap k)]
  let e : Fin 8 × Fin 8 × Fin 128 ≃ Fin 8192 :=
    ((Equiv.refl (Fin 8)).prodCongr finProdFinEquiv).trans finProdFinEquiv
  calc ∑ k : Fin 8, ∑ s : Fin 8, ∑ l : Fin 128, f (glob k.val (lane s l))
      = ∑ p : Fin 8 × Fin 8 × Fin 128, f (glob p.1.val (lane p.2.1 p.2.2)) := by
        simp only [Fintype.sum_prod_type]
    _ = ∑ j : Fin 8192, f j := by
        refine Fintype.sum_equiv e _ _ (fun p => congrArg f (Fin.ext ?_))
        obtain ⟨k, s, l⟩ := p
        have hk := k.isLt
        have hs := s.isLt
        have hl := l.isLt
        show (k.val * 1024 + (s.val * 128 + l.val)) % 8192 = (l.val + 128 * s.val) + (8 * 128) * k.val
        omega

/-! ### The rows and the result -/

/-- The two sides' row sums agree. -/
theorem row_eq (x : Mat) (hx : Finite x) (i : Fin 8192) : rowK x i = rowR x i := by
  show ∑ l : Fin 128, ∑ k ∈ Finset.range 8, ∑ s : Fin 8, ek x i (glob k (lane s l)) = ∑ j : Fin 8192, er x i j
  rw [regroup (fun j => ek x i j)]
  exact Finset.sum_congr rfl (fun j _ => ek_eq_er x hx i j)

/-- The two sides agree on every matrix of real numbers. -/
theorem result_eq (x : Mat) (hx : Finite x) : resultK x = resultR x := by
  unfold resultK resultR
  exact congrArg tail (funext (fun i => row_eq x hx i))

end Cert.Dispersion

end
-- ==== Proof.FiniteIn.lean ====
/-
  From the precondition to real entries.

  The precondition compares the absolute value of every entry with +∞ and asks that all the comparisons hold.
  An extended real whose absolute value `max v (−v)` lies strictly below +∞ is neither +∞ nor −∞, hence a real
  number; so under the precondition every entry of the matrix is a real number.
-/
import proofs.«173406_j10788957848170_2_alg».proof.Proof.Spec
import proofs.«173406_j10788957848170_2_alg».proof.Pre_finite_inputs
import Idealize.ShloMosaic.Lib.ReduceAll

noncomputable section

namespace Cert.Dispersion

open Idealize.ShloMosaic Idealize.ShloMosaic.ValueIdx

/-- The index set of a rank-zero array has one element. -/
instance : Subsingleton Cert.Pre_finite_inputs.S_.Idx := ⟨fun a b => funext fun d => d.elim0⟩

/-- The bound the entries are compared with is +∞. -/
theorem inf_eq : Ideal.ofBits .f32 0x7F800000#32 = (⊤ : EReal) := by
  simp [Ideal.ofBits, Ideal.ieee]

/-- An extended real whose absolute value is strictly below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- Under the precondition every entry of the matrix is a real number. -/
theorem finite_of_pre [Cert.Pre_finite_inputs.Facts]
    (a : FVec Ideal Cert.Pre_finite_inputs.S8192x2048 .f32)
    (h : Cert.Pre_finite_inputs.fn (F := Ideal) a = fun _ => 1#1) : Finite (asMat a) := by
  intro i d
  -- the conjunction over all entries holds, so the comparison holds at the entry `(i, d)`
  have h0 := congrFun h ValueIdx.ix0
  dsimp only [Cert.Pre_finite_inputs.fn] at h0
  have h1 := Host.reduce_andi_all _ _ _ _ _ h0 (ix2 i d)
  -- at that entry the comparison reads `max v (−v) < +∞`
  have h2 : Ideal.cmp .olt (max (a (ix2 i d)) (-(a (ix2 i d)))) (Ideal.ofBits .f32 0x7F800000#32) = 1#1 := h1
  rw [inf_eq] at h2
  have hlt : max (a (ix2 i d)) (-(a (ix2 i d))) < ⊤ := by
    by_contra hn
    have h3 : Ideal.cmp .olt (max (a (ix2 i d)) (-(a (ix2 i d)))) ⊤ = 0#1 := by
      simp [Ideal.cmp, hn]
    rw [h3] at h2
    exact absurd h2 (by decide)
  exact real_of_abs_lt_top _ hlt

end Cert.Dispersion

end
-- ==== Proof.lean ====
/-
  The certificate's five claims.

  Both kernel programs (the word-level one and its idealization) run as four segments: the call that divides each
  row of the input by the larger of its norm and a small constant, a reshape, the call that accumulates for every
  pair of rows the exponential of their negated squared distance into 128 lanes per row, and the closing sums
  and quotients.  Each call is a pipeline over its grid; the frame claims follow from the pipeline rule applied to
  each call with the program's buffers tracked between segments.  The idealization drops one change of format
  and its inverse, which is the identity on the extended reals.  Over the extended reals the kernel's result is
  the mean over rows of the lane-wise accumulated sums divided by 8191, and the reference's the same with each row
  summed in one go and the exponent written as a negated maximum instead of a minimum; for finite inputs every
  intermediate is a real number, the two exponents agree, and regrouping a finite sum changes nothing.
-/
import proofs.«173406_j10788957848170_2_alg».proof.Defs
import proofs.«173406_j10788957848170_2_alg».proof.Proof.Gen.Kernel
import proofs.«173406_j10788957848170_2_alg».proof.Proof.Gen.KernelIdeal
import proofs.«173406_j10788957848170_2_alg».proof.Proof.Gen.ReferenceIdeal
import proofs.«173406_j10788957848170_2_alg».proof.Proof.Gen.Pre_finite_inputs
import proofs.«173406_j10788957848170_2_alg».proof.Proof.MainRun
import proofs.«173406_j10788957848170_2_alg».proof.Proof.MainRunB
import proofs.«173406_j10788957848170_2_alg».proof.Proof.KernelValue
import proofs.«173406_j10788957848170_2_alg».proof.Proof.RefValue
import proofs.«173406_j10788957848170_2_alg».proof.Proof.Math
import proofs.«173406_j10788957848170_2_alg».proof.Proof.FiniteIn

noncomputable section

namespace Cert.Proof

open Idealize.ShloMosaic Idealize.ShloMosaic.TcCoe Idealize.SL.Sem

theorem frame_kernel : Cert.frame_Kernel := fun m ρ _ => Cert.Kernel.RunK.frame m ρ

theorem frame_kernelIdeal : Cert.frame_KernelIdeal := fun m ρ _ => Cert.KernelIdeal.RunK.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Rounding to the narrower format and widening back is the identity on the extended reals. -/
theorem preserves : Cert.preserves_Kernel_KernelIdeal :=
  IdealRules.truncf_extf.statement _ .f32 .bf16

/-- Both programs end with the same number in their result: the kernel's is the lane-wise form of the mean, the
    reference's the plain one, and for a finite input the two are equal. -/
theorem algebraic : Cert.algebraic_KernelIdeal_ReferenceIdeal := by
  intro m ρ m' ρ' hpre hagree
  refine ⟨fun c => fun _ => Cert.Dispersion.resultK (Cert.Dispersion.asMat (m ((c.tc : Thread Cert.KernelIdeal.nD Cert.KernelIdeal.τ).loc Cert.KernelIdeal.main_arg0))), ?_, ?_⟩
  · exact (θ_run Cert.KernelIdeal.defs _ _).mono (fun _ h c => ⟨(h c).1.trans (Cert.KernelIdeal.KV.result m c), (h c).2⟩)
      (Cert.KernelIdeal.RunK.run_main m ρ)
  · refine (θ_run Cert.ReferenceIdeal.defs _ _).mono (fun _ h c => ⟨(h c).1.trans ?_, (h c).2⟩)
      (Cert.ReferenceIdeal.RefValue.run_result m' ρ')
    rw [hagree c]
    exact funext fun _ => (Cert.Dispersion.result_eq _ (Cert.Dispersion.finite_of_pre _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
